-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg6 : FVec F S128 .f32) (main_arg7 : FVec F S128x2 .f32) (main_arg8 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x2 .f32 := Host.absf main_arg7
  let main_cst_8 : FVec F S_ .f32 := constant S_ .f32 0x7F800000#32
  let main_v25 : FVec F S128x2 .f32 := broadcastInDim S128x2 ![] bcast_S_S128x2 main_cst_8
  let main_v26 : IVec S128x2 1 := cmpf .olt main_v24 main_v25
  let main_c_9 : IVec S_ 1 := constantI S_ 1 1#1
  let main_v27 : IVec S_ 1 := (fun x v => Host.reduce IntOp.andi x v reducesTo_S128x2_S_d0_1 h_S_) main_v26 main_c_9
  let main_v28 : IVec S_ 1 := andi main_v23 main_v27
  let main_v29 : FVec F S2 .f32 := Host.absf main_arg8
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x2 .f32) (main_arg8 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S2000x128 : Shape := ⟨2, ![2000, 128]⟩
abbrev S1600000x128 : Shape := ⟨2, ![1600000, 128]⟩
abbrev S1x128 : Shape := ⟨2, ![1, 128]⟩
abbrev S2000x1 : Shape := ⟨2, ![2000, 1]⟩
abbrev S512 : Shape := ⟨1, ![512]⟩
abbrev S512x128 : Shape := ⟨2, ![512, 128]⟩
abbrev S512x1 : Shape := ⟨2, ![512, 1]⟩
abbrev S1x2 : Shape := ⟨2, ![1, 2]⟩
abbrev S512x2 : Shape := ⟨2, ![512, 2]⟩

abbrev nBuf : Space → Nat
  | .hbm => 102
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x2, .f32⟩
  | .hbm, ⟨8, _⟩ => ⟨S2, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000, .f32⟩
  | .hbm, ⟨43, _⟩ => ⟨S1600000, .f32⟩
  | .hbm, ⟨44, _⟩ => ⟨S100000, .f32⟩
  | .hbm, ⟨45, _⟩ => ⟨S100000x1, .f32⟩
  | .hbm, ⟨46, _⟩ => ⟨S100000x128, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .f32⟩
  | .hbm, ⟨56, _⟩ => ⟨S1600000x1, .f32⟩
  | .hbm, ⟨57, _⟩ => ⟨S1600000x128, .f32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1600000x128, .f32⟩
  | .hbm, ⟨75, _⟩ => ⟨S1600000x1, .f32⟩
  | .hbm, ⟨76, _⟩ => ⟨S1600000x128, .f32⟩
  | .hbm, ⟨77, _⟩ => ⟨S1600000x128, .f32⟩
  | .hbm, ⟨78, _⟩ => ⟨S_, .f32⟩
  | .hbm, ⟨79, _⟩ => ⟨S100000x128, .f32⟩
  | .hbm, ⟨80, _⟩ => ⟨S1600000x1, .i32⟩
  | .hbm, ⟨81, _⟩ => ⟨S100000x128, .f32⟩
  | .hbm, ⟨82, _⟩ => ⟨S1x128, .f32⟩
  | .hbm, ⟨83, _⟩ => ⟨S100000x128, .f32⟩
  | .hbm, ⟨84, _⟩ => ⟨S_, .f32⟩
  | .hbm, ⟨85, _⟩ => ⟨S100000, .f32⟩
  | .hbm, ⟨86, _⟩ => ⟨S_, .f32⟩
  | .hbm, ⟨87, _⟩ => ⟨S512, .f32⟩
  | .hbm, ⟨88, _⟩ => ⟨S100000x1, .i32⟩
  | .hbm, ⟨89, _⟩ => ⟨S512, .f32⟩
  | .hbm, ⟨90, _⟩ => ⟨S_, .f32⟩
  | .hbm, ⟨91, _⟩ => ⟨S512x128, .f32⟩
  | .hbm, ⟨92, _⟩ => ⟨S100000x1, .i32⟩
  | .hbm, ⟨93, _⟩ => ⟨S512x128, .f32⟩
  | .hbm, ⟨94, _⟩ => ⟨S_, .f32⟩
  | .hbm, ⟨95, _⟩ => ⟨S512, .f32⟩
  | .hbm, ⟨96, _⟩ => ⟨S512, .f32⟩
  | .hbm, ⟨97, _⟩ => ⟨S512x1, .f32⟩
  | .hbm, ⟨98, _⟩ => ⟨S512x128, .f32⟩
  | .hbm, ⟨99, _⟩ => ⟨S512x128, .f32⟩
  | .hbm, ⟨100, _⟩ => ⟨S1x2, .f32⟩
  | .hbm, ⟨101, _⟩ => ⟨S512x2, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x1, .f32⟩
  | .local _ .vmem, ⟨24, _⟩ => ⟨S2000x1, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S512x128, .f32⟩
  | .local _ .vmem, ⟨29, _⟩ => ⟨S128x2, .f32⟩
  | .local _ .vmem, ⟨30, _⟩ => ⟨S1x2, .f32⟩
  | .local _ .vmem, ⟨31, _⟩ => ⟨S512x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_c_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_9 : Ref sig .tc := ⟨.hbm, 66, rfl⟩
abbrev main_v46 : Ref sig .tc := ⟨.hbm, 67, rfl⟩
abbrev main_v47 : Ref sig .tc := ⟨.hbm, 68, rfl⟩
abbrev main_c_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_11 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_12 : Ref sig .tc := ⟨.hbm, 84, rfl⟩
abbrev main_v61 : Ref sig .tc := ⟨.hbm, 85, rfl⟩
abbrev main_cst_13 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_14 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_15 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem1_0 : DmaSem sig := 29
abbrev cc4_sem2_0 : DmaSem sig := 30
abbrev cc4_sem3_0 : DmaSem sig := 31

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S512x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x2 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x2 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S512x2 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S512 : S_.BroadcastsInDim S512 (![] : Fin 0 → Fin S512.rank)
  bcast_S100000_S100000x1_0 : S100000.BroadcastsInDim S100000x1 (![0] : Fin 1 → Fin S100000x1.rank)
  bcast_S_S512x128 : S_.BroadcastsInDim S512x128 (![] : Fin 0 → Fin S512x128.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  shapeCasts_S2_S1x2 : S2.ShapeCasts S1x2
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S512x2 : S1x2.Broadcasts S512x2
  inb_S512x2_S512x2_0_0 : ∀ a, (![0, 0] : Fin 2 → Nat) a + S512x2.size a ≤ S512x2.size a
  h_S512x2 : 0 < S512x2.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S512_S100000x1_S100000_n_0_0_1_wf : ScatterDims.WF S512 S100000x1 S100000 [] [0] [0] 1
  scatter_S512x128_S100000x1_S100000x128_1_0_0_1_wf : ScatterDims.WF S512x128 S100000x1 S100000x128 [1] [0] [0] 1
  dot_S512x128_S128x2_S512x2_1_0_0_1_n_n_wf : DotDims.WF S512x128 S128x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S100000x128.size a
  hwx1_4 : ∀ i : grid1.Coords, EltTy.bits .f32 = 32 ∨ (Rect.block (s := S100000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S100000x128.size a
  hwx3_1 : ∀ i : grid3.Coords, EltTy.bits .f32 = 32 ∨ (Rect.block (s := S100000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S100000x128.size a
  hwx3_4 : ∀ i : grid3.Coords, EltTy.bits .f32 = 32 ∨ (Rect.block (s := S100000x128) S2000x128.size (cc3_transform_4 i) (hinb3_4 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S512x128.size a ≤ S512x128.size a
  hwx4_0 : ∀ i : grid4.Coords, EltTy.bits .f32 = 32 ∨ (Rect.block (s := S512x128) S512x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x2.size a ≤ S128x2.size a
  hwx4_1 : ∀ i : grid4.Coords, EltTy.bits .f32 = 32 ∨ (Rect.block (s := S128x2) S128x2.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x2.size a ≤ S1x2.size a
  hwx4_2 : ∀ i : grid4.Coords, EltTy.bits .f32 = 32 ∨ (Rect.block (s := S1x2) S1x2.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S512x2.size a ≤ S512x2.size a
  hwx4_3 : ∀ i : grid4.Coords, EltTy.bits .f32 = 32 ∨ (Rect.block (s := S512x2) S512x2.size (cc4_transform_3 i) (hinb4_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v29) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v44) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v45) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v58) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v28) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v59) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v60) S2000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v72) S512x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x2.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v73) S1x2.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v74) S512x2.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S512 : Shape := ⟨1, ![512]⟩
abbrev S512x128 : Shape := ⟨2, ![512, 128]⟩
abbrev S512x1 : Shape := ⟨2, ![512, 1]⟩
abbrev S512x2 : Shape := ⟨2, ![512, 2]⟩
abbrev S1x2 : Shape := ⟨2, ![1, 2]⟩

abbrev nBuf : Space → Nat
  | .hbm => 115
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x2, .f32⟩
  | .hbm, ⟨8, _⟩ => ⟨S2, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000, .f32⟩
  | .hbm, ⟨43, _⟩ => ⟨S1600000, .f32⟩
  | .hbm, ⟨44, _⟩ => ⟨S100000, .f32⟩
  | .hbm, ⟨45, _⟩ => ⟨S100000x1, .f32⟩
  | .hbm, ⟨46, _⟩ => ⟨S100000x128, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .f32⟩
  | .hbm, ⟨56, _⟩ => ⟨S1600000x1, .f32⟩
  | .hbm, ⟨57, _⟩ => ⟨S1600000x128, .f32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S_, .i32⟩
  | .hbm, ⟨74, _⟩ => ⟨S1600000, .i32⟩
  | .hbm, ⟨75, _⟩ => ⟨S1600000, .i1⟩
  | .hbm, ⟨76, _⟩ => ⟨S_, .i32⟩
  | .hbm, ⟨77, _⟩ => ⟨S1600000, .i32⟩
  | .hbm, ⟨78, _⟩ => ⟨S1600000, .i32⟩
  | .hbm, ⟨79, _⟩ => ⟨S1600000, .i32⟩
  | .hbm, ⟨80, _⟩ => ⟨S1600000x1, .i32⟩
  | .hbm, ⟨81, _⟩ => ⟨S1600000x128, .f32⟩
  | .hbm, ⟨82, _⟩ => ⟨S1600000x1, .f32⟩
  | .hbm, ⟨83, _⟩ => ⟨S1600000x128, .f32⟩
  | .hbm, ⟨84, _⟩ => ⟨S1600000x128, .f32⟩
  | .hbm, ⟨85, _⟩ => ⟨S_, .f32⟩
  | .hbm, ⟨86, _⟩ => ⟨S100000x128, .f32⟩
  | .hbm, ⟨87, _⟩ => ⟨S1600000x1, .i32⟩
  | .hbm, ⟨88, _⟩ => ⟨S100000x128, .f32⟩
  | .hbm, ⟨89, _⟩ => ⟨S100000x128, .f32⟩
  | .hbm, ⟨90, _⟩ => ⟨S100000x128, .f32⟩
  | .hbm, ⟨91, _⟩ => ⟨S100000x128, .f32⟩
  | .hbm, ⟨92, _⟩ => ⟨S1x128, .f32⟩
  | .hbm, ⟨93, _⟩ => ⟨S100000x128, .f32⟩
  | .hbm, ⟨94, _⟩ => ⟨S100000x128, .f32⟩
  | .hbm, ⟨95, _⟩ => ⟨S_, .f32⟩
  | .hbm, ⟨96, _⟩ => ⟨S100000, .f32⟩
  | .hbm, ⟨97, _⟩ => ⟨S_, .f32⟩
  | .hbm, ⟨98, _⟩ => ⟨S512, .f32⟩
  | .hbm, ⟨99, _⟩ => ⟨S100000x1, .i32⟩
  | .hbm, ⟨100, _⟩ => ⟨S512, .f32⟩
  | .hbm, ⟨101, _⟩ => ⟨S_, .f32⟩
  | .hbm, ⟨102, _⟩ => ⟨S512x128, .f32⟩
  | .hbm, ⟨103, _⟩ => ⟨S100000x1, .i32⟩
  | .hbm, ⟨104, _⟩ => ⟨S512x128, .f32⟩
  | .hbm, ⟨105, _⟩ => ⟨S_, .f32⟩
  | .hbm, ⟨106, _⟩ => ⟨S512, .f32⟩
  | .hbm, ⟨107, _⟩ => ⟨S512, .f32⟩
  | .hbm, ⟨108, _⟩ => ⟨S512x1, .f32⟩
  | .hbm, ⟨109, _⟩ => ⟨S512x128, .f32⟩
  | .hbm, ⟨110, _⟩ => ⟨S512x128, .f32⟩
  | .hbm, ⟨111, _⟩ => ⟨S512x2, .f32⟩
  | .hbm, ⟨112, _⟩ => ⟨S1x2, .f32⟩
  | .hbm, ⟨113, _⟩ => ⟨S512x2, .f32⟩
  | .hbm, ⟨114, _⟩ => ⟨S512x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_c_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call0_cst : Ref sig .tc := ⟨.hbm, 69, rfl⟩
abbrev main_call0_v0 : Ref sig .tc := ⟨.hbm, 70, rfl⟩
abbrev main_v49 : Ref sig .tc := ⟨.hbm, 71, rfl⟩
abbrev main_v50 : Ref sig .tc := ⟨.hbm, 72, rfl⟩
abbrev main_c_9 : Ref sig .tc := ⟨.hbm, 73, rfl⟩
abbrev main_v51 : Ref sig .tc := ⟨.hbm, 74, rfl⟩
abbrev main_v52 : Ref sig .tc := ⟨.hbm, 75, rfl⟩
abbrev main_c_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_12 : Ref sig .tc := ⟨.hbm, 95, rfl⟩
abbrev main_v70 : Ref sig .tc := ⟨.hbm, 96, rfl⟩
abbrev main_cst_13 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_14 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_15 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S512 : S_.BroadcastsInDim S512 (![] : Fin 0 → Fin S512.rank)
  bcast_S_S512x128 : S_.BroadcastsInDim S512x128 (![] : Fin 0 → Fin S512x128.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S512_S100000x1_S100000_n_0_0_1_wf : ScatterDims.WF S512 S100000x1 S100000 [] [0] [0] 1
  scatter_S512x128_S100000x1_S100000x128_1_0_0_1_wf : ScatterDims.WF S512x128 S100000x1 S100000x128 [1] [0] [0] 1
  dot_S512x128_S128x2_S512x2_1_0_0_1_n_n_wf : DotDims.WF S512x128 S128x2 S512x2 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf

class Facts : Prop extends Facts₀ where

variable [Facts]
-- ==== Proof.KernelRun.lean ====
import proofs.«157782_j45887430590976_1_alg».proof.Proof.Gen.KernelIdeal.Frame

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of the five-region program, with the result array named

The program is nine segments: four stretches of host operations and five kernel regions.  The buffer contents at the
segment boundaries form a chain `W0, …, W9`: a host stretch maps the contents to `StableHlo.after` of its operations,
a region replaces each of its window arrays by what its write-backs leave.  Every weakly fair execution ends with
every unscoped buffer at the last boundary's contents `W9`; read at the result buffer this names the result, read at
an argument buffer it gives back the launch contents. -/

set_option backward.isDefEq.respectTransparency.types false in
/-- Every weakly fair execution terminates without a fault, the result buffer holding the last boundary's contents at
    it and every argument array what it held at launch. -/
theorem run_result : θ_run defs (onTc (τ := τ) (main (F := F))) ⟨m, fun _ => 0, ρ⟩ (fun r => ∀ c : Dev nD,
      r.2.mem ((c.tc : Thread nD τ).loc main_v74) = W9 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v74 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)

end Cert.KernelIdeal.Result

end
-- ==== Proof.Spec.lean ====
import Idealize.ShloMosaic.PureOps.Ideal
import Idealize.ShloMosaic.PureOps.Ideal.Laws
import Idealize.ShloMosaic.Lib.ValueIdx

/-! # The layers of the graph network as whole-array functions over the extended reals

Three functions of whole arrays are all that the kernels compute.  A dense layer multiplies a matrix of node rows by a
weight matrix: entry `(r, c)` is the sum over `k` of `x (r, k) * w (k, c)`.  A combination adds, entry by entry, the
neighbour aggregate, the transformed features scaled by the row's self-loop weight, and the bias of the column; the
first layer then takes the maximum with zero.  The classifier is a dense layer followed by the bias of the column. -/

noncomputable section

namespace Cert.Gcn

open Idealize.ShloMosaic Idealize.ShloMosaic.ValueIdx

/-- The row coordinate of a matrix index, as a number below the row count. -/
abbrev rowOf {R C : Nat} (i : (⟨2, ![R, C]⟩ : Shape).Idx) : Fin R := ⟨(i 0).val, (i 0).isLt⟩
/-- The column coordinate of a matrix index, as a number below the column count. -/
abbrev colOf {R C : Nat} (i : (⟨2, ![R, C]⟩ : Shape).Idx) : Fin C := ⟨(i 1).val, (i 1).isLt⟩

/-- The matrix product: entry `i` is the sum over the shared axis of row `i` of `x` against column `i` of `w`. -/
def matProd {R K C : Nat} (x : (⟨2, ![R, K]⟩ : Shape).Idx → EReal) (w : (⟨2, ![K, C]⟩ : Shape).Idx → EReal) :
    (⟨2, ![R, C]⟩ : Shape).Idx → EReal :=
  fun i => ∑ k : Fin K, x (ix2 (rowOf i) k) * w (ix2 k (colOf i))

/-- One layer's combination before the activation: aggregate plus features scaled by the row's self-loop weight plus the
    column's bias. -/
def combine {R C : Nat} (h agg : (⟨2, ![R, C]⟩ : Shape).Idx → EReal) (sn : (⟨2, ![R, 1]⟩ : Shape).Idx → EReal)
    (b : (⟨2, ![1, C]⟩ : Shape).Idx → EReal) : (⟨2, ![R, C]⟩ : Shape).Idx → EReal :=
  fun i => agg i + h i * sn (ix2 (rowOf i) 0) + b (ix2 0 (colOf i))

/-- The combination followed by the maximum with the float zero. -/
def combineRelu {R C : Nat} (h agg : (⟨2, ![R, C]⟩ : Shape).Idx → EReal) (sn : (⟨2, ![R, 1]⟩ : Shape).Idx → EReal)
    (b : (⟨2, ![1, C]⟩ : Shape).Idx → EReal) : (⟨2, ![R, C]⟩ : Shape).Idx → EReal :=
  fun i => max (combine h agg sn b i) (Ideal.ofBits .f32 0x00000000#32)

/-- The classifier: a matrix product plus the column's bias. -/
def linear {R K C : Nat} (x : (⟨2, ![R, K]⟩ : Shape).Idx → EReal) (w : (⟨2, ![K, C]⟩ : Shape).Idx → EReal)
    (b : (⟨2, ![1, C]⟩ : Shape).Idx → EReal) : (⟨2, ![R, C]⟩ : Shape).Idx → EReal :=
  fun i => matProd x w i + b (ix2 0 (colOf i))

end Cert.Gcn

end
-- ==== Proof.DenseBody.lean ====
import proofs.«157782_j45887430590976_1_alg».proof.Proof.Gen.KernelIdeal.Skeleton
import proofs.«157782_j45887430590976_1_alg».proof.Proof.Spec
import Idealize.ShloMosaic.Lib.Pipeline.Value

/-! # The two dense kernel bodies, read at an index

Over the extended reals the cast to the narrow float is the identity and the matrix unit started from the zero splat
is the plain sum over the shared axis, so the stored value of a dense body at row `r`, column `c` of its tile is
`∑ k, x (r, k) * w (k, c)`: the tile of the matrix product. -/

noncomputable section

namespace Cert.KernelIdeal.DenseBody

open Cert.KernelIdeal Cert.KernelIdeal.Gen Idealize.ShloMosaic Idealize.ShloMosaic.TcCoe Idealize.ShloMosaic.ValueIdx Cert.Gcn

/-! ## The 2000-row tile against the 128 × 128 weights -/

theorem tile_lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem tile_lhs_k (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem tile_rhs_k (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem tile_rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The matrix unit from the zero splat, at an index of the tile: the tile's entry of the matrix product. -/
theorem tile_matmul_apply (x : FVec Ideal S2000x128 .bf16) (w : FVec Ideal S128x128 .bf16) (i : S2000x128.Idx) :
    matmul dot_S2000x128_S128x128_S2000x128_1_0_0_1_n_n none x w (constant S2000x128 .f32 0x00000000#32) i
      = matProd (R := 2000) (K := 128) (C := 128) x w i := by
  simp only [matmul]
  rw [Ideal.matmul_constant_zero_apply, ← Equiv.sum_comp (ValueIdx.contrEquiv1 dot_S2000x128_S128x128_S2000x128_1_0_0_1_n_n 128 rfl rfl).symm]
  unfold matProd
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx i ((ValueIdx.contrEquiv1 dot_S2000x128_S128x128_S2000x128_1_0_0_1_n_n 128 rfl rfl).symm k) = ix2 (rowOf i) k := funext fun a => Fin.ext (by
    match a with
    | ⟨0, _⟩ => exact tile_lhs_row _ _
    | ⟨1, _⟩ => exact (tile_lhs_k _ _).trans hk)
  have er : dot_S2000x128_S128x128_S2000x128_1_0_0_1_n_n.rhsIdx i ((ValueIdx.contrEquiv1 dot_S2000x128_S128x128_S2000x128_1_0_0_1_n_n 128 rfl rfl).symm k) = ix2 k (colOf i) := funext fun a => Fin.ext (by
    match a with
    | ⟨0, _⟩ => exact (tile_rhs_k _ _).trans hk
    | ⟨1, _⟩ => exact tile_rhs_col _ _)
  rw [el, er]

/-- The first dense body's stored value is the tile's matrix product of the two loaded blocks. -/
theorem dense0_eq (x : Vec Ideal S2000x128 .f32) (w : Vec Ideal S128x128 .f32) :
    k0_pay1 (F := Ideal) x w = matProd (R := 2000) (K := 128) (C := 128) x w := by
  funext i
  unfold k0_pay1
  exact tile_matmul_apply _ _ i

/-- The second dense body's stored value is the same function (its extra cast keeps the shape). -/
theorem dense2_eq (x : Vec Ideal S2000x128 .f32) (w : Vec Ideal S128x128 .f32) :
    k2_pay1 (F := Ideal) x w = matProd (R := 2000) (K := 128) (C := 128) x w := by
  funext i
  unfold k2_pay1
  rw [shapeCast_self]
  exact tile_matmul_apply _ _ i

end Cert.KernelIdeal.DenseBody

end
-- ==== Proof.Dense0.lean ====
import proofs.«157782_j45887430590976_1_alg».proof.Proof.Gen.KernelIdeal.Frame
import proofs.«157782_j45887430590976_1_alg».proof.Proof.DenseBody

/-! # A dense region: the output array is the matrix product of its two input arrays

The grid has fifty points; point `t` reads rows `2000 t … 2000 t + 1999` of the node matrix and the whole weight
matrix, and writes the same rows of the output.  What it writes is that row tile of the product of the whole arrays,
and the fifty tiles cover the output, so after the region the output array is the product. -/

set_option maxRecDepth 16384

noncomputable section

namespace Cert.KernelIdeal.Dense0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Gcn Idealize.ShloMosaic.ValueIdx Cert.KernelIdeal.DenseBody

variable (V : (c : Dev nD) → (b : Ref sig .tc) → Buf (Elt Ideal) ((c : Thread nD τ).loc b))

theorem zero_off : (![0, 0] : Fin 2 → Nat) = fun _ => 0 := funext fun a => by fin_cases a <;> rfl

/-- The block indices over the grid: the row windows sit at block `t`, the weight window at block zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The row block at point `t` holds rows `2000 t + r` of the node matrix. -/
theorem read_rows (c : Dev nD) (t : Fin cfg0.N) (y : S2000x128.Idx) (i : S100000x128.Idx)
    (h0 : (i 0).val = t.val * 2000 + (y 0).val) (h1 : (i 1).val = (y 1).val) :
    iblk0 V c 0 t y = V c main_arg0 i := by
  obtain ⟨e0, e1, -⟩ := idx_facts t
  show V c main_arg0 (((cfg0.win 0).blk t).view.emb y) = V c main_arg0 i
  refine congrArg (V c main_arg0) (funext fun a => Fin.ext ?_)
  match a with
  | ⟨0, _⟩ => show win0_0.index t (0 : Fin 2) * 2000 + 1 * (y 0).val = (i 0).val; omega
  | ⟨1, _⟩ => show win0_0.index t (1 : Fin 2) * 128 + 1 * (y 1).val = (i 1).val; omega

/-- The weight block at every point is the whole weight matrix. -/
theorem read_weights (c : Dev nD) (t : Fin cfg0.N) (y : S128x128.Idx) (i : S128x128.Idx)
    (h0 : (i 0).val = (y 0).val) (h1 : (i 1).val = (y 1).val) :
    iblk0 V c 1 t y = V c main_arg3 i := by
  obtain ⟨-, -, e2, e3, -⟩ := idx_facts t
  show V c main_arg3 (((cfg0.win 1).blk t).view.emb y) = V c main_arg3 i
  refine congrArg (V c main_arg3) (funext fun a => Fin.ext ?_)
  match a with
  | ⟨0, _⟩ => show win0_1.index t (0 : Fin 2) * 128 + 1 * (y 0).val = (i 0).val; omega
  | ⟨1, _⟩ => show win0_1.index t (1 : Fin 2) * 128 + 1 * (y 1).val = (i 1).val; omega

/-- An entry of the output block at point `t` sits at row `2000 t + r`, same column. -/
theorem out_row (t : Fin cfg0.N) (j : S2000x128.Idx) :
    ((((cfg0.win 2).blk t).view.emb j) 0).val = t.val * 2000 + (j 0).val := by
  obtain ⟨-, -, -, -, e4, -⟩ := idx_facts t
  show win0_2.index t (0 : Fin 2) * 2000 + 1 * (j 0).val = _
  omega
theorem out_col (t : Fin cfg0.N) (j : S2000x128.Idx) :
    ((((cfg0.win 2).blk t).view.emb j) 1).val = (j 1).val := by
  obtain ⟨-, -, -, -, -, e5⟩ := idx_facts t
  show win0_2.index t (1 : Fin 2) * 128 + 1 * (j 1).val = _
  omega

/-- What point `t` writes back is its row tile of the product of the whole arrays. -/
theorem flushed_eq (c : Dev nD) (t : Fin cfg0.N) :
    (dat0 V c).flushed 2 t = ((cfg0.win 2).blk t).view.read (Elt Ideal)
      (matProd (R := 100000) (K := 128) (C := 128) (V c main_arg0) (V c main_arg3)) := by
  show (cfg0.win 2).cut (grid0.coords t) ((dat0 V c).after 2 t) = _
  rw [after0_2]
  unfold out0_2
  rw [View.canon_unit_zero zero_off]
  simp only [View.ld_unit_zero (S := S2000x128) zero_off, View.ld_unit_zero (S := S128x128) zero_off]
  rw [dense0_eq]
  funext j
  show matProd (R := 2000) (K := 128) (C := 128) (iblk0 V c 0 t) (iblk0 V c 1 t) j
    = matProd (R := 100000) (K := 128) (C := 128) (V c main_arg0) (V c main_arg3) (((cfg0.win 2).blk t).view.emb j)
  unfold matProd
  refine Finset.sum_congr rfl fun k _ => ?_
  rw [read_rows V c t (ix2 (rowOf j) k) (ix2 (rowOf (((cfg0.win 2).blk t).view.emb j)) k) (out_row t j) rfl,
    read_weights V c t (ix2 k (colOf j)) (ix2 k (colOf (((cfg0.win 2).blk t).view.emb j))) rfl (out_col t j)]

/-- An index of the output array lies in point `t`'s block iff each coordinate lies in the block's range. -/
theorem mem_blk (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v29).slice (win0_2.rect t)).set ↔ _
  rw [View.set_slice_whole, Rect.mem_set_unit]
  exact Iff.rfl

/-- Row `r` of the output is written by point `r / 2000`. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 50 := N_0
  have hlt : (i 0).val / 2000 < grid0.N := by omega
  refine ⟨⟨(i 0).val / 2000, hlt⟩, flush0_2 _, ?_⟩
  rw [mem_blk]
  obtain ⟨-, -, -, -, e4, e5⟩ := idx_facts ⟨(i 0).val / 2000, hlt⟩
  have e4' : win0_2.index ⟨(i 0).val / 2000, hlt⟩ (0 : Fin 2) = (i 0).val / 2000 := e4
  intro a
  match a with
  | ⟨0, _⟩ =>
    show win0_2.index ⟨(i 0).val / 2000, hlt⟩ (0 : Fin 2) * 2000 ≤ (i 0).val ∧ (i 0).val < win0_2.index ⟨(i 0).val / 2000, hlt⟩ (0 : Fin 2) * 2000 + 2000
    omega
  | ⟨1, _⟩ =>
    show win0_2.index ⟨(i 0).val / 2000, hlt⟩ (1 : Fin 2) * 128 ≤ (i 1).val ∧ (i 1).val < win0_2.index ⟨(i 0).val / 2000, hlt⟩ (1 : Fin 2) * 128 + 128
    omega

/-- After the region the output array is the matrix product of the input arrays as the region found them. -/
theorem final (c : Dev nD) :
    (dat0 V c).arrAt 2 cfg0.N = matProd (R := 100000) (K := 128) (C := 128) (V c main_arg0) (V c main_arg3) :=
  (dat0 V c).arrAt_eq_of_cover 2 _ (fun t _ => flushed_eq V c t) cover

end Cert.KernelIdeal.Dense0

end
-- ==== Proof.Dense2.lean ====
import proofs.«157782_j45887430590976_1_alg».proof.Proof.Gen.KernelIdeal.Frame
import proofs.«157782_j45887430590976_1_alg».proof.Proof.DenseBody

/-! # A dense region: the output array is the matrix product of its two input arrays

The grid has fifty points; point `t` reads rows `2000 t … 2000 t + 1999` of the node matrix and the whole weight
matrix, and writes the same rows of the output.  What it writes is that row tile of the product of the whole arrays,
and the fifty tiles cover the output, so after the region the output array is the product. -/

set_option maxRecDepth 16384

noncomputable section

namespace Cert.KernelIdeal.Dense2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Gcn Idealize.ShloMosaic.ValueIdx Cert.KernelIdeal.DenseBody

variable (V : (c : Dev nD) → (b : Ref sig .tc) → Buf (Elt Ideal) ((c : Thread nD τ).loc b))

theorem zero_off : (![0, 0] : Fin 2 → Nat) = fun _ => 0 := funext fun a => by fin_cases a <;> rfl

/-- The block indices over the grid: the row windows sit at block `t`, the weight window at block zero. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The row block at point `t` holds rows `2000 t + r` of the node matrix. -/
theorem read_rows (c : Dev nD) (t : Fin cfg2.N) (y : S2000x128.Idx) (i : S100000x128.Idx)
    (h0 : (i 0).val = t.val * 2000 + (y 0).val) (h1 : (i 1).val = (y 1).val) :
    iblk2 V c 0 t y = V c main_v44 i := by
  obtain ⟨e0, e1, -⟩ := idx_facts t
  show V c main_v44 (((cfg2.win 0).blk t).view.emb y) = V c main_v44 i
  refine congrArg (V c main_v44) (funext fun a => Fin.ext ?_)
  match a with
  | ⟨0, _⟩ => show win2_0.index t (0 : Fin 2) * 2000 + 1 * (y 0).val = (i 0).val; omega
  | ⟨1, _⟩ => show win2_0.index t (1 : Fin 2) * 128 + 1 * (y 1).val = (i 1).val; omega

/-- The weight block at every point is the whole weight matrix. -/
theorem read_weights (c : Dev nD) (t : Fin cfg2.N) (y : S128x128.Idx) (i : S128x128.Idx)
    (h0 : (i 0).val = (y 0).val) (h1 : (i 1).val = (y 1).val) :
    iblk2 V c 1 t y = V c main_arg5 i := by
  obtain ⟨-, -, e2, e3, -⟩ := idx_facts t
  show V c main_arg5 (((cfg2.win 1).blk t).view.emb y) = V c main_arg5 i
  refine congrArg (V c main_arg5) (funext fun a => Fin.ext ?_)
  match a with
  | ⟨0, _⟩ => show win2_1.index t (0 : Fin 2) * 128 + 1 * (y 0).val = (i 0).val; omega
  | ⟨1, _⟩ => show win2_1.index t (1 : Fin 2) * 128 + 1 * (y 1).val = (i 1).val; omega

/-- An entry of the output block at point `t` sits at row `2000 t + r`, same column. -/
theorem out_row (t : Fin cfg2.N) (j : S2000x128.Idx) :
    ((((cfg2.win 2).blk t).view.emb j) 0).val = t.val * 2000 + (j 0).val := by
  obtain ⟨-, -, -, -, e4, -⟩ := idx_facts t
  show win2_2.index t (0 : Fin 2) * 2000 + 1 * (j 0).val = _
  omega
theorem out_col (t : Fin cfg2.N) (j : S2000x128.Idx) :
    ((((cfg2.win 2).blk t).view.emb j) 1).val = (j 1).val := by
  obtain ⟨-, -, -, -, -, e5⟩ := idx_facts t
  show win2_2.index t (1 : Fin 2) * 128 + 1 * (j 1).val = _
  omega

/-- What point `t` writes back is its row tile of the product of the whole arrays. -/
theorem flushed_eq (c : Dev nD) (t : Fin cfg2.N) :
    (dat2 V c).flushed 2 t = ((cfg2.win 2).blk t).view.read (Elt Ideal)
      (matProd (R := 100000) (K := 128) (C := 128) (V c main_v44) (V c main_arg5)) := by
  show (cfg2.win 2).cut (grid2.coords t) ((dat2 V c).after 2 t) = _
  rw [after2_2]
  unfold out2_2
  rw [View.canon_unit_zero zero_off]
  simp only [View.ld_unit_zero (S := S2000x128) zero_off, View.ld_unit_zero (S := S128x128) zero_off]
  rw [dense2_eq]
  funext j
  show matProd (R := 2000) (K := 128) (C := 128) (iblk2 V c 0 t) (iblk2 V c 1 t) j
    = matProd (R := 100000) (K := 128) (C := 128) (V c main_v44) (V c main_arg5) (((cfg2.win 2).blk t).view.emb j)
  unfold matProd
  refine Finset.sum_congr rfl fun k _ => ?_
  rw [read_rows V c t (ix2 (rowOf j) k) (ix2 (rowOf (((cfg2.win 2).blk t).view.emb j)) k) (out_row t j) rfl,
    read_weights V c t (ix2 k (colOf j)) (ix2 k (colOf (((cfg2.win 2).blk t).view.emb j))) rfl (out_col t j)]

/-- An index of the output array lies in point `t`'s block iff each coordinate lies in the block's range. -/
theorem mem_blk (t : Fin cfg2.N) (i : S100000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v45).slice (win2_2.rect t)).set ↔ _
  rw [View.set_slice_whole, Rect.mem_set_unit]
  exact Iff.rfl

/-- Row `r` of the output is written by point `r / 2000`. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : grid2.N = 50 := N_2
  have hlt : (i 0).val / 2000 < grid2.N := by omega
  refine ⟨⟨(i 0).val / 2000, hlt⟩, flush2_2 _, ?_⟩
  rw [mem_blk]
  obtain ⟨-, -, -, -, e4, e5⟩ := idx_facts ⟨(i 0).val / 2000, hlt⟩
  have e4' : win2_2.index ⟨(i 0).val / 2000, hlt⟩ (0 : Fin 2) = (i 0).val / 2000 := e4
  intro a
  match a with
  | ⟨0, _⟩ =>
    show win2_2.index ⟨(i 0).val / 2000, hlt⟩ (0 : Fin 2) * 2000 ≤ (i 0).val ∧ (i 0).val < win2_2.index ⟨(i 0).val / 2000, hlt⟩ (0 : Fin 2) * 2000 + 2000
    omega
  | ⟨1, _⟩ =>
    show win2_2.index ⟨(i 0).val / 2000, hlt⟩ (1 : Fin 2) * 128 ≤ (i 1).val ∧ (i 1).val < win2_2.index ⟨(i 0).val / 2000, hlt⟩ (1 : Fin 2) * 128 + 128
    omega

/-- After the region the output array is the matrix product of the input arrays as the region found them. -/
theorem final (c : Dev nD) :
    (dat2 V c).arrAt 2 cfg2.N = matProd (R := 100000) (K := 128) (C := 128) (V c main_v44) (V c main_arg5) :=
  (dat2 V c).arrAt_eq_of_cover 2 _ (fun t _ => flushed_eq V c t) cover

end Cert.KernelIdeal.Dense2

end
-- ==== Proof.CombineBody.lean ====
import proofs.«157782_j45887430590976_1_alg».proof.Proof.Gen.KernelIdeal.Skeleton
import proofs.«157782_j45887430590976_1_alg».proof.Proof.Spec
import Idealize.ShloMosaic.Lib.Pipeline.Value

/-! # The two combination bodies, read at an index

Each body adds, entry by entry, the aggregate tile, the feature tile times the tile's column of self-loop weights
stretched along the rows, and the bias row stretched down the columns; the first layer's body then takes the maximum
with the zero splat.  Read at row `r`, column `c` the stretched column is its entry `(r, 0)` and the stretched row its
entry `(0, c)`. -/

noncomputable section

namespace Cert.KernelIdeal.CombineBody

open Cert.KernelIdeal Cert.KernelIdeal.Gen Idealize.ShloMosaic Idealize.ShloMosaic.TcCoe Idealize.ShloMosaic.ValueIdx Cert.Gcn

/-- A one-column matrix stretched along the columns reads, at `(r, c)`, its entry `(r, 0)`. -/
theorem stretchCol_apply {α : Type} {a b : ℕ} (v : (⟨2, ![a, 1]⟩ : Shape).Idx → α)
    (h : (⟨2, ![a, 1]⟩ : Shape).Broadcasts ⟨2, ![a, b]⟩) (j : (⟨2, ![a, b]⟩ : Shape).Idx) :
    broadcastTo ⟨2, ![a, b]⟩ v h j = v (ix2 (rowOf j) (0 : Fin 1)) := by
  refine broadcastTo_apply v h j (ix2 (rowOf j) (0 : Fin 1)) fun ax => ?_
  match ax with
  | ⟨0, _⟩ =>
    show (j 0).val = if a = 1 then 0 else (j 0).val
    split
    · have : (j 0).val < a := (j 0).isLt
      omega
    · rfl
  | ⟨1, _⟩ => rfl

/-- A one-row matrix stretched down the rows reads, at `(r, c)`, its entry `(0, c)`. -/
theorem stretchRow_apply {α : Type} {a b : ℕ} (v : (⟨2, ![1, b]⟩ : Shape).Idx → α)
    (h : (⟨2, ![1, b]⟩ : Shape).Broadcasts ⟨2, ![a, b]⟩) (j : (⟨2, ![a, b]⟩ : Shape).Idx) :
    broadcastTo ⟨2, ![a, b]⟩ v h j = v (ix2 (0 : Fin 1) (colOf j)) := by
  refine broadcastTo_apply v h j (ix2 (0 : Fin 1) (colOf j)) fun ax => ?_
  match ax with
  | ⟨0, _⟩ => rfl
  | ⟨1, _⟩ =>
    show (j 1).val = if b = 1 then 0 else (j 1).val
    split
    · have : (j 1).val < b := (j 1).isLt
      omega
    · rfl

/-- The first layer's body stores the combination followed by the maximum with zero. -/
theorem combine1_eq (agg h : Vec Ideal S2000x128 .f32) (sn : Vec Ideal S2000x1 .f32) (b : Vec Ideal S1x128 .f32) :
    k1_pay1 (F := Ideal) agg h sn b = combineRelu (R := 2000) (C := 128) h agg sn b := by
  funext i
  unfold k1_pay1 combineRelu combine
  simp only [shapeCast_self]
  show max ((agg i + h i * broadcastTo S2000x128 sn broadcasts_S2000x1_S2000x128 i)
      + broadcastTo S2000x128 b broadcasts_S1x128_S2000x128 i) (Ideal.ofBits .f32 0x00000000#32) = _
  rw [stretchCol_apply, stretchRow_apply]

/-- The second layer's body stores the combination. -/
theorem combine3_eq (agg h : Vec Ideal S2000x128 .f32) (sn : Vec Ideal S2000x1 .f32) (b : Vec Ideal S1x128 .f32) :
    k3_pay1 (F := Ideal) agg h sn b = combine (R := 2000) (C := 128) h agg sn b := by
  funext i
  unfold k3_pay1 combine
  simp only [shapeCast_self]
  show (agg i + h i * broadcastTo S2000x128 sn broadcasts_S2000x1_S2000x128 i)
      + broadcastTo S2000x128 b broadcasts_S1x128_S2000x128 i = _
  rw [stretchCol_apply, stretchRow_apply]

end Cert.KernelIdeal.CombineBody

end
-- ==== Proof.Combine1.lean ====
import proofs.«157782_j45887430590976_1_alg».proof.Proof.Gen.KernelIdeal.Frame
import proofs.«157782_j45887430590976_1_alg».proof.Proof.CombineBody

/-! # A combination region: the output array is the layer's combination of its four input arrays

The grid has fifty points; point `t` reads rows `2000 t … 2000 t + 1999` of the features, of the aggregate and of the
self-loop column, and the whole bias row, and writes the same rows of the output.  What it writes is that row tile of
the combination of the whole arrays, and the fifty tiles cover the output. -/

set_option maxRecDepth 16384

noncomputable section

namespace Cert.KernelIdeal.Combine1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Gcn Idealize.ShloMosaic.ValueIdx Cert.KernelIdeal.CombineBody

variable (V : (c : Dev nD) → (b : Ref sig .tc) → Buf (Elt Ideal) ((c : Thread nD τ).loc b))

theorem zero_off : (![0, 0] : Fin 2 → Nat) = fun _ => 0 := funext fun a => by fin_cases a <;> rfl

/-- The block indices over the grid: the row windows sit at block `t`, the bias window at block zero. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The feature block at point `t` holds rows `2000 t + r` of the feature matrix. -/
theorem read_features (c : Dev nD) (t : Fin cfg1.N) (y : S2000x128.Idx) (i : S100000x128.Idx)
    (h0 : (i 0).val = t.val * 2000 + (y 0).val) (h1 : (i 1).val = (y 1).val) :
    iblk1 V c 0 t y = V c main_v29 i := by
  obtain ⟨e0, e1, -⟩ := idx_facts t
  show V c main_v29 (((cfg1.win 0).blk t).view.emb y) = V c main_v29 i
  refine congrArg (V c main_v29) (funext fun a => Fin.ext ?_)
  match a with
  | ⟨0, _⟩ => show win1_0.index t (0 : Fin 2) * 2000 + 1 * (y 0).val = (i 0).val; omega
  | ⟨1, _⟩ => show win1_0.index t (1 : Fin 2) * 128 + 1 * (y 1).val = (i 1).val; omega

/-- The aggregate block at point `t` holds rows `2000 t + r` of the aggregate. -/
theorem read_aggregate (c : Dev nD) (t : Fin cfg1.N) (y : S2000x128.Idx) (i : S100000x128.Idx)
    (h0 : (i 0).val = t.val * 2000 + (y 0).val) (h1 : (i 1).val = (y 1).val) :
    iblk1 V c 1 t y = V c main_v42 i := by
  obtain ⟨-, -, e2, e3, -⟩ := idx_facts t
  show V c main_v42 (((cfg1.win 1).blk t).view.emb y) = V c main_v42 i
  refine congrArg (V c main_v42) (funext fun a => Fin.ext ?_)
  match a with
  | ⟨0, _⟩ => show win1_1.index t (0 : Fin 2) * 2000 + 1 * (y 0).val = (i 0).val; omega
  | ⟨1, _⟩ => show win1_1.index t (1 : Fin 2) * 128 + 1 * (y 1).val = (i 1).val; omega

/-- The self-loop block at point `t` holds rows `2000 t + r` of the self-loop column. -/
theorem read_selfloop (c : Dev nD) (t : Fin cfg1.N) (y : S2000x1.Idx) (i : S100000x1.Idx)
    (h0 : (i 0).val = t.val * 2000 + (y 0).val) (h1 : (i 1).val = (y 1).val) :
    iblk1 V c 2 t y = V c main_v28 i := by
  obtain ⟨-, -, -, -, e4, e5, -⟩ := idx_facts t
  show V c main_v28 (((cfg1.win 2).blk t).view.emb y) = V c main_v28 i
  refine congrArg (V c main_v28) (funext fun a => Fin.ext ?_)
  match a with
  | ⟨0, _⟩ => show win1_2.index t (0 : Fin 2) * 2000 + 1 * (y 0).val = (i 0).val; omega
  | ⟨1, _⟩ => show win1_2.index t (1 : Fin 2) * 1 + 1 * (y 1).val = (i 1).val; omega

/-- The bias block at every point is the whole bias row. -/
theorem read_bias (c : Dev nD) (t : Fin cfg1.N) (y : S1x128.Idx) (i : S1x128.Idx)
    (h0 : (i 0).val = (y 0).val) (h1 : (i 1).val = (y 1).val) :
    iblk1 V c 3 t y = V c main_v43 i := by
  obtain ⟨-, -, -, -, -, -, e6, e7, -⟩ := idx_facts t
  show V c main_v43 (((cfg1.win 3).blk t).view.emb y) = V c main_v43 i
  refine congrArg (V c main_v43) (funext fun a => Fin.ext ?_)
  match a with
  | ⟨0, _⟩ => show win1_3.index t (0 : Fin 2) * 1 + 1 * (y 0).val = (i 0).val; omega
  | ⟨1, _⟩ => show win1_3.index t (1 : Fin 2) * 128 + 1 * (y 1).val = (i 1).val; omega

/-- An entry of the output block at point `t` sits at row `2000 t + r`, same column. -/
theorem out_row (t : Fin cfg1.N) (j : S2000x128.Idx) :
    ((((cfg1.win 4).blk t).view.emb j) 0).val = t.val * 2000 + (j 0).val := by
  obtain ⟨-, -, -, -, -, -, -, -, e8, -⟩ := idx_facts t
  show win1_4.index t (0 : Fin 2) * 2000 + 1 * (j 0).val = _
  omega
theorem out_col (t : Fin cfg1.N) (j : S2000x128.Idx) :
    ((((cfg1.win 4).blk t).view.emb j) 1).val = (j 1).val := by
  obtain ⟨-, -, -, -, -, -, -, -, -, e9⟩ := idx_facts t
  show win1_4.index t (1 : Fin 2) * 128 + 1 * (j 1).val = _
  omega

/-- What point `t` writes back is its row tile of the combination of the whole arrays. -/
theorem flushed_eq (c : Dev nD) (t : Fin cfg1.N) :
    (dat1 V c).flushed 4 t = ((cfg1.win 4).blk t).view.read (Elt Ideal)
      (combineRelu (R := 100000) (C := 128) (V c main_v29) (V c main_v42) (V c main_v28) (V c main_v43)) := by
  show (cfg1.win 4).cut (grid1.coords t) ((dat1 V c).after 4 t) = _
  rw [after1_4]
  unfold out1_4
  rw [View.canon_unit_zero zero_off]
  simp only [View.ld_unit_zero (S := S2000x128) zero_off, View.ld_unit_zero (S := S2000x1) zero_off, View.ld_unit_zero (S := S1x128) zero_off]
  rw [combine1_eq]
  funext j
  show combineRelu (R := 2000) (C := 128) (iblk1 V c 0 t) (iblk1 V c 1 t) (iblk1 V c 2 t) (iblk1 V c 3 t) j
    = combineRelu (R := 100000) (C := 128) (V c main_v29) (V c main_v42) (V c main_v28) (V c main_v43) (((cfg1.win 4).blk t).view.emb j)
  unfold combineRelu combine
  rw [read_features V c t j (((cfg1.win 4).blk t).view.emb j) (out_row t j) (out_col t j),
    read_aggregate V c t j (((cfg1.win 4).blk t).view.emb j) (out_row t j) (out_col t j),
    read_selfloop V c t (ix2 (rowOf j) (0 : Fin 1)) (ix2 (rowOf (((cfg1.win 4).blk t).view.emb j)) (0 : Fin 1)) (out_row t j) rfl,
    read_bias V c t (ix2 (0 : Fin 1) (colOf j)) (ix2 (0 : Fin 1) (colOf (((cfg1.win 4).blk t).view.emb j))) rfl (out_col t j)]

/-- An index of the output array lies in point `t`'s block iff each coordinate lies in the block's range. -/
theorem mem_blk (t : Fin cfg1.N) (i : S100000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v44).slice (win1_4.rect t)).set ↔ _
  rw [View.set_slice_whole, Rect.mem_set_unit]
  exact Iff.rfl

/-- Row `r` of the output is written by point `r / 2000`. -/
theorem cover (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : grid1.N = 50 := N_1
  have hlt : (i 0).val / 2000 < grid1.N := by omega
  refine ⟨⟨(i 0).val / 2000, hlt⟩, flush1_4 _, ?_⟩
  rw [mem_blk]
  obtain ⟨-, -, -, -, -, -, -, -, e8, e9⟩ := idx_facts ⟨(i 0).val / 2000, hlt⟩
  have e8' : win1_4.index ⟨(i 0).val / 2000, hlt⟩ (0 : Fin 2) = (i 0).val / 2000 := e8
  intro a
  match a with
  | ⟨0, _⟩ =>
    show win1_4.index ⟨(i 0).val / 2000, hlt⟩ (0 : Fin 2) * 2000 ≤ (i 0).val ∧ (i 0).val < win1_4.index ⟨(i 0).val / 2000, hlt⟩ (0 : Fin 2) * 2000 + 2000
    omega
  | ⟨1, _⟩ =>
    show win1_4.index ⟨(i 0).val / 2000, hlt⟩ (1 : Fin 2) * 128 ≤ (i 1).val ∧ (i 1).val < win1_4.index ⟨(i 0).val / 2000, hlt⟩ (1 : Fin 2) * 128 + 128
    omega

/-- After the region the output array is the combination of the input arrays as the region found them. -/
theorem final (c : Dev nD) :
    (dat1 V c).arrAt 4 cfg1.N = combineRelu (R := 100000) (C := 128) (V c main_v29) (V c main_v42) (V c main_v28) (V c main_v43) :=
  (dat1 V c).arrAt_eq_of_cover 4 _ (fun t _ => flushed_eq V c t) cover

end Cert.KernelIdeal.Combine1

end
-- ==== Proof.Combine3.lean ====
import proofs.«157782_j45887430590976_1_alg».proof.Proof.Gen.KernelIdeal.Frame
import proofs.«157782_j45887430590976_1_alg».proof.Proof.CombineBody

/-! # A combination region: the output array is the layer's combination of its four input arrays

The grid has fifty points; point `t` reads rows `2000 t … 2000 t + 1999` of the features, of the aggregate and of the
self-loop column, and the whole bias row, and writes the same rows of the output.  What it writes is that row tile of
the combination of the whole arrays, and the fifty tiles cover the output. -/

set_option maxRecDepth 16384

noncomputable section

namespace Cert.KernelIdeal.Combine3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Gcn Idealize.ShloMosaic.ValueIdx Cert.KernelIdeal.CombineBody

variable (V : (c : Dev nD) → (b : Ref sig .tc) → Buf (Elt Ideal) ((c : Thread nD τ).loc b))

theorem zero_off : (![0, 0] : Fin 2 → Nat) = fun _ => 0 := funext fun a => by fin_cases a <;> rfl

/-- The block indices over the grid: the row windows sit at block `t`, the bias window at block zero. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The feature block at point `t` holds rows `2000 t + r` of the feature matrix. -/
theorem read_features (c : Dev nD) (t : Fin cfg3.N) (y : S2000x128.Idx) (i : S100000x128.Idx)
    (h0 : (i 0).val = t.val * 2000 + (y 0).val) (h1 : (i 1).val = (y 1).val) :
    iblk3 V c 0 t y = V c main_v45 i := by
  obtain ⟨e0, e1, -⟩ := idx_facts t
  show V c main_v45 (((cfg3.win 0).blk t).view.emb y) = V c main_v45 i
  refine congrArg (V c main_v45) (funext fun a => Fin.ext ?_)
  match a with
  | ⟨0, _⟩ => show win3_0.index t (0 : Fin 2) * 2000 + 1 * (y 0).val = (i 0).val; omega
  | ⟨1, _⟩ => show win3_0.index t (1 : Fin 2) * 128 + 1 * (y 1).val = (i 1).val; omega

/-- The aggregate block at point `t` holds rows `2000 t + r` of the aggregate. -/
theorem read_aggregate (c : Dev nD) (t : Fin cfg3.N) (y : S2000x128.Idx) (i : S100000x128.Idx)
    (h0 : (i 0).val = t.val * 2000 + (y 0).val) (h1 : (i 1).val = (y 1).val) :
    iblk3 V c 1 t y = V c main_v58 i := by
  obtain ⟨-, -, e2, e3, -⟩ := idx_facts t
  show V c main_v58 (((cfg3.win 1).blk t).view.emb y) = V c main_v58 i
  refine congrArg (V c main_v58) (funext fun a => Fin.ext ?_)
  match a with
  | ⟨0, _⟩ => show win3_1.index t (0 : Fin 2) * 2000 + 1 * (y 0).val = (i 0).val; omega
  | ⟨1, _⟩ => show win3_1.index t (1 : Fin 2) * 128 + 1 * (y 1).val = (i 1).val; omega

/-- The self-loop block at point `t` holds rows `2000 t + r` of the self-loop column. -/
theorem read_selfloop (c : Dev nD) (t : Fin cfg3.N) (y : S2000x1.Idx) (i : S100000x1.Idx)
    (h0 : (i 0).val = t.val * 2000 + (y 0).val) (h1 : (i 1).val = (y 1).val) :
    iblk3 V c 2 t y = V c main_v28 i := by
  obtain ⟨-, -, -, -, e4, e5, -⟩ := idx_facts t
  show V c main_v28 (((cfg3.win 2).blk t).view.emb y) = V c main_v28 i
  refine congrArg (V c main_v28) (funext fun a => Fin.ext ?_)
  match a with
  | ⟨0, _⟩ => show win3_2.index t (0 : Fin 2) * 2000 + 1 * (y 0).val = (i 0).val; omega
  | ⟨1, _⟩ => show win3_2.index t (1 : Fin 2) * 1 + 1 * (y 1).val = (i 1).val; omega

/-- The bias block at every point is the whole bias row. -/
theorem read_bias (c : Dev nD) (t : Fin cfg3.N) (y : S1x128.Idx) (i : S1x128.Idx)
    (h0 : (i 0).val = (y 0).val) (h1 : (i 1).val = (y 1).val) :
    iblk3 V c 3 t y = V c main_v59 i := by
  obtain ⟨-, -, -, -, -, -, e6, e7, -⟩ := idx_facts t
  show V c main_v59 (((cfg3.win 3).blk t).view.emb y) = V c main_v59 i
  refine congrArg (V c main_v59) (funext fun a => Fin.ext ?_)
  match a with
  | ⟨0, _⟩ => show win3_3.index t (0 : Fin 2) * 1 + 1 * (y 0).val = (i 0).val; omega
  | ⟨1, _⟩ => show win3_3.index t (1 : Fin 2) * 128 + 1 * (y 1).val = (i 1).val; omega

/-- An entry of the output block at point `t` sits at row `2000 t + r`, same column. -/
theorem out_row (t : Fin cfg3.N) (j : S2000x128.Idx) :
    ((((cfg3.win 4).blk t).view.emb j) 0).val = t.val * 2000 + (j 0).val := by
  obtain ⟨-, -, -, -, -, -, -, -, e8, -⟩ := idx_facts t
  show win3_4.index t (0 : Fin 2) * 2000 + 1 * (j 0).val = _
  omega
theorem out_col (t : Fin cfg3.N) (j : S2000x128.Idx) :
    ((((cfg3.win 4).blk t).view.emb j) 1).val = (j 1).val := by
  obtain ⟨-, -, -, -, -, -, -, -, -, e9⟩ := idx_facts t
  show win3_4.index t (1 : Fin 2) * 128 + 1 * (j 1).val = _
  omega

/-- What point `t` writes back is its row tile of the combination of the whole arrays. -/
theorem flushed_eq (c : Dev nD) (t : Fin cfg3.N) :
    (dat3 V c).flushed 4 t = ((cfg3.win 4).blk t).view.read (Elt Ideal)
      (combine (R := 100000) (C := 128) (V c main_v45) (V c main_v58) (V c main_v28) (V c main_v59)) := by
  show (cfg3.win 4).cut (grid3.coords t) ((dat3 V c).after 4 t) = _
  rw [after3_4]
  unfold out3_4
  rw [View.canon_unit_zero zero_off]
  simp only [View.ld_unit_zero (S := S2000x128) zero_off, View.ld_unit_zero (S := S2000x1) zero_off, View.ld_unit_zero (S := S1x128) zero_off]
  rw [combine3_eq]
  funext j
  show combine (R := 2000) (C := 128) (iblk3 V c 0 t) (iblk3 V c 1 t) (iblk3 V c 2 t) (iblk3 V c 3 t) j
    = combine (R := 100000) (C := 128) (V c main_v45) (V c main_v58) (V c main_v28) (V c main_v59) (((cfg3.win 4).blk t).view.emb j)
  unfold combine
  rw [read_features V c t j (((cfg3.win 4).blk t).view.emb j) (out_row t j) (out_col t j),
    read_aggregate V c t j (((cfg3.win 4).blk t).view.emb j) (out_row t j) (out_col t j),
    read_selfloop V c t (ix2 (rowOf j) (0 : Fin 1)) (ix2 (rowOf (((cfg3.win 4).blk t).view.emb j)) (0 : Fin 1)) (out_row t j) rfl,
    read_bias V c t (ix2 (0 : Fin 1) (colOf j)) (ix2 (0 : Fin 1) (colOf (((cfg3.win 4).blk t).view.emb j))) rfl (out_col t j)]

/-- An index of the output array lies in point `t`'s block iff each coordinate lies in the block's range. -/
theorem mem_blk (t : Fin cfg3.N) (i : S100000x128.Idx) :
    i ∈ ((cfg3.win 4).blk t).view.set ↔ ∀ a : Fin 2, win3_4.index t a * S2000x128.size a ≤ (i a).val ∧ (i a).val < win3_4.index t a * S2000x128.size a + S2000x128.size a := by
  show i ∈ ((View.whole main_v60).slice (win3_4.rect t)).set ↔ _
  rw [View.set_slice_whole, Rect.mem_set_unit]
  exact Iff.rfl

/-- Row `r` of the output is written by point `r / 2000`. -/
theorem cover (i : S100000x128.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  have hN : grid3.N = 50 := N_3
  have hlt : (i 0).val / 2000 < grid3.N := by omega
  refine ⟨⟨(i 0).val / 2000, hlt⟩, flush3_4 _, ?_⟩
  rw [mem_blk]
  obtain ⟨-, -, -, -, -, -, -, -, e8, e9⟩ := idx_facts ⟨(i 0).val / 2000, hlt⟩
  have e8' : win3_4.index ⟨(i 0).val / 2000, hlt⟩ (0 : Fin 2) = (i 0).val / 2000 := e8
  intro a
  match a with
  | ⟨0, _⟩ =>
    show win3_4.index ⟨(i 0).val / 2000, hlt⟩ (0 : Fin 2) * 2000 ≤ (i 0).val ∧ (i 0).val < win3_4.index ⟨(i 0).val / 2000, hlt⟩ (0 : Fin 2) * 2000 + 2000
    omega
  | ⟨1, _⟩ =>
    show win3_4.index ⟨(i 0).val / 2000, hlt⟩ (1 : Fin 2) * 128 ≤ (i 1).val ∧ (i 1).val < win3_4.index ⟨(i 0).val / 2000, hlt⟩ (1 : Fin 2) * 128 + 128
    omega

/-- After the region the output array is the combination of the input arrays as the region found them. -/
theorem final (c : Dev nD) :
    (dat3 V c).arrAt 4 cfg3.N = combine (R := 100000) (C := 128) (V c main_v45) (V c main_v58) (V c main_v28) (V c main_v59) :=
  (dat3 V c).arrAt_eq_of_cover 4 _ (fun t _ => flushed_eq V c t) cover

end Cert.KernelIdeal.Combine3

end
-- ==== Proof.LinearBody.lean ====
import proofs.«157782_j45887430590976_1_alg».proof.Proof.Gen.KernelIdeal.Skeleton
import proofs.«157782_j45887430590976_1_alg».proof.Proof.Spec
import proofs.«157782_j45887430590976_1_alg».proof.Proof.CombineBody

/-! # The classifier body, read at an index

The body multiplies the 512 pooled rows by the 128 × 2 weights on the matrix unit from the zero splat and adds the bias
row stretched down the rows: at row `r`, column `c` it stores `∑ k, x (r, k) * w (k, c) + b (0, c)`. -/

noncomputable section

namespace Cert.KernelIdeal.LinearBody

open Cert.KernelIdeal Cert.KernelIdeal.Gen Idealize.ShloMosaic Idealize.ShloMosaic.TcCoe Idealize.ShloMosaic.ValueIdx Cert.Gcn
open Cert.KernelIdeal.CombineBody

theorem lhs_row (i : S512x2.Idx) (q : dot_S512x128_S128x2_S512x2_1_0_0_1_n_n.contr.Idx) :
    (dot_S512x128_S128x2_S512x2_1_0_0_1_n_n.lhsIdx i q 0).val = (i 0).val := by
  unfold DotDims.lhsIdx
  rw [dif_neg (show ¬(0 : Fin S512x128.rank) ∈ dot_S512x128_S128x2_S512x2_1_0_0_1_n_n.lhsBatch by decide), dif_pos (show (0 : Fin S512x128.rank) ∈ dot_S512x128_S128x2_S512x2_1_0_0_1_n_n.lhsNonContracting by decide)]
  rfl
theorem lhs_k (i : S512x2.Idx) (q : dot_S512x128_S128x2_S512x2_1_0_0_1_n_n.contr.Idx) :
    (dot_S512x128_S128x2_S512x2_1_0_0_1_n_n.lhsIdx i q 1).val = (q ⟨0, by decide⟩).val :=
  dot_S512x128_S128x2_S512x2_1_0_0_1_n_n.lhsIdx_val_of_single rfl i q
theorem rhs_k (i : S512x2.Idx) (q : dot_S512x128_S128x2_S512x2_1_0_0_1_n_n.contr.Idx) :
    (dot_S512x128_S128x2_S512x2_1_0_0_1_n_n.rhsIdx i q 0).val = (q ⟨0, by decide⟩).val :=
  dot_S512x128_S128x2_S512x2_1_0_0_1_n_n.rhsIdx_val_of_single rfl i q
theorem rhs_col (i : S512x2.Idx) (q : dot_S512x128_S128x2_S512x2_1_0_0_1_n_n.contr.Idx) :
    (dot_S512x128_S128x2_S512x2_1_0_0_1_n_n.rhsIdx i q 1).val = (i 1).val := by
  unfold DotDims.rhsIdx
  rw [dif_neg (show ¬(1 : Fin S128x2.rank) ∈ dot_S512x128_S128x2_S512x2_1_0_0_1_n_n.rhsBatch by decide), dif_pos (show (1 : Fin S128x2.rank) ∈ dot_S512x128_S128x2_S512x2_1_0_0_1_n_n.rhsNonContracting by decide)]
  rfl

/-- The matrix unit from the zero splat, at an index: the entry of the matrix product. -/
theorem matmul_apply (x : FVec Ideal S512x128 .bf16) (w : FVec Ideal S128x2 .bf16) (i : S512x2.Idx) :
    matmul dot_S512x128_S128x2_S512x2_1_0_0_1_n_n none x w (constant S512x2 .f32 0x00000000#32) i
      = matProd (R := 512) (K := 128) (C := 2) x w i := by
  simp only [matmul]
  rw [Ideal.matmul_constant_zero_apply, ← Equiv.sum_comp (ValueIdx.contrEquiv1 dot_S512x128_S128x2_S512x2_1_0_0_1_n_n 128 rfl rfl).symm]
  unfold matProd
  refine Finset.sum_congr rfl fun k _ => ?_
  have hk := ValueIdx.contrEquiv1_symm_val dot_S512x128_S128x2_S512x2_1_0_0_1_n_n 128 rfl rfl k
  have el : dot_S512x128_S128x2_S512x2_1_0_0_1_n_n.lhsIdx i ((ValueIdx.contrEquiv1 dot_S512x128_S128x2_S512x2_1_0_0_1_n_n 128 rfl rfl).symm k) = ix2 (rowOf i) k := funext fun a => Fin.ext (by
    match a with
    | ⟨0, _⟩ => exact lhs_row _ _
    | ⟨1, _⟩ => exact (lhs_k _ _).trans hk)
  have er : dot_S512x128_S128x2_S512x2_1_0_0_1_n_n.rhsIdx i ((ValueIdx.contrEquiv1 dot_S512x128_S128x2_S512x2_1_0_0_1_n_n 128 rfl rfl).symm k) = ix2 k (colOf i) := funext fun a => Fin.ext (by
    match a with
    | ⟨0, _⟩ => exact (rhs_k _ _).trans hk
    | ⟨1, _⟩ => exact rhs_col _ _)
  rw [el, er]

/-- The classifier body's stored value is the matrix product plus the column's bias. -/
theorem linear_eq (x : Vec Ideal S512x128 .f32) (w : Vec Ideal S128x2 .f32) (b : Vec Ideal S1x2 .f32) :
    k4_pay1 (F := Ideal) x w b = linear (R := 512) (K := 128) (C := 2) x w b := by
  funext i
  unfold k4_pay1 linear
  simp only [shapeCast_self]
  show matmul (F := Ideal) dot_S512x128_S128x2_S512x2_1_0_0_1_n_n none (truncf .bf16 x bitsLt_bf16_f32) (truncf .bf16 w bitsLt_bf16_f32) (constant S512x2 .f32 0x00000000#32) i
      + broadcastTo S512x2 b broadcasts_S1x2_S512x2 i = _
  rw [matmul_apply, stretchRow_apply]
  rfl

end Cert.KernelIdeal.LinearBody

end
-- ==== Proof.Linear4.lean ====
import proofs.«157782_j45887430590976_1_alg».proof.Proof.Gen.KernelIdeal.Frame
import proofs.«157782_j45887430590976_1_alg».proof.Proof.LinearBody

/-! # The classifier region: the output array is the linear map of its three input arrays

The grid is one point whose blocks are the whole arrays: the pooled rows, the weights and the bias row are read whole
and the 512 × 2 output is written whole. -/

set_option maxRecDepth 16384

noncomputable section

namespace Cert.KernelIdeal.Linear4

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Gcn Idealize.ShloMosaic.ValueIdx Cert.KernelIdeal.LinearBody

variable (V : (c : Dev nD) → (b : Ref sig .tc) → Buf (Elt Ideal) ((c : Thread nD τ).loc b))

theorem zero_off : (![0, 0] : Fin 2 → Nat) = fun _ => 0 := funext fun a => by fin_cases a <;> rfl

/-- Every window sits at block zero at the grid's one point. -/
theorem idx_facts : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

/-- The pooled block is the whole pooled array. -/
theorem read_pooled (c : Dev nD) (t : Fin cfg4.N) (y : S512x128.Idx) : iblk4 V c 0 t y = V c main_v72 y := by
  obtain ⟨e0, e1, -⟩ := idx_facts t
  show V c main_v72 (((cfg4.win 0).blk t).view.emb y) = V c main_v72 y
  refine congrArg (V c main_v72) (funext fun a => Fin.ext ?_)
  match a with
  | ⟨0, _⟩ => show win4_0.index t (0 : Fin 2) * 512 + 1 * (y 0).val = (y 0).val; omega
  | ⟨1, _⟩ => show win4_0.index t (1 : Fin 2) * 128 + 1 * (y 1).val = (y 1).val; omega

/-- The weight block is the whole weight matrix. -/
theorem read_weights (c : Dev nD) (t : Fin cfg4.N) (y : S128x2.Idx) : iblk4 V c 1 t y = V c main_arg7 y := by
  obtain ⟨-, -, e2, e3, -⟩ := idx_facts t
  show V c main_arg7 (((cfg4.win 1).blk t).view.emb y) = V c main_arg7 y
  refine congrArg (V c main_arg7) (funext fun a => Fin.ext ?_)
  match a with
  | ⟨0, _⟩ => show win4_1.index t (0 : Fin 2) * 128 + 1 * (y 0).val = (y 0).val; omega
  | ⟨1, _⟩ => show win4_1.index t (1 : Fin 2) * 2 + 1 * (y 1).val = (y 1).val; omega

/-- The bias block is the whole bias row. -/
theorem read_bias (c : Dev nD) (t : Fin cfg4.N) (y : S1x2.Idx) : iblk4 V c 2 t y = V c main_v73 y := by
  obtain ⟨-, -, -, -, e4, e5, -⟩ := idx_facts t
  show V c main_v73 (((cfg4.win 2).blk t).view.emb y) = V c main_v73 y
  refine congrArg (V c main_v73) (funext fun a => Fin.ext ?_)
  match a with
  | ⟨0, _⟩ => show win4_2.index t (0 : Fin 2) * 1 + 1 * (y 0).val = (y 0).val; omega
  | ⟨1, _⟩ => show win4_2.index t (1 : Fin 2) * 2 + 1 * (y 1).val = (y 1).val; omega

/-- An entry of the output block sits at its own index in the output array. -/
theorem out_emb (t : Fin cfg4.N) (j : S512x2.Idx) : ((cfg4.win 3).blk t).view.emb j = j := by
  obtain ⟨-, -, -, -, -, -, e6, e7⟩ := idx_facts t
  refine funext fun a => Fin.ext ?_
  match a with
  | ⟨0, _⟩ => show win4_3.index t (0 : Fin 2) * 512 + 1 * (j 0).val = (j 0).val; omega
  | ⟨1, _⟩ => show win4_3.index t (1 : Fin 2) * 2 + 1 * (j 1).val = (j 1).val; omega

/-- What the one point writes back is the linear map of the whole arrays. -/
theorem flushed_eq (c : Dev nD) (t : Fin cfg4.N) :
    (dat4 V c).flushed 3 t = ((cfg4.win 3).blk t).view.read (Elt Ideal)
      (linear (R := 512) (K := 128) (C := 2) (V c main_v72) (V c main_arg7) (V c main_v73)) := by
  show (cfg4.win 3).cut (grid4.coords t) ((dat4 V c).after 3 t) = _
  rw [after4_3]
  unfold out4_3
  rw [View.canon_unit_zero zero_off]
  simp only [View.ld_unit_zero (S := S512x128) zero_off, View.ld_unit_zero (S := S128x2) zero_off, View.ld_unit_zero (S := S1x2) zero_off]
  rw [linear_eq]
  funext j
  show linear (R := 512) (K := 128) (C := 2) (iblk4 V c 0 t) (iblk4 V c 1 t) (iblk4 V c 2 t) j
    = linear (R := 512) (K := 128) (C := 2) (V c main_v72) (V c main_arg7) (V c main_v73) (((cfg4.win 3).blk t).view.emb j)
  rw [out_emb t j]
  unfold linear matProd
  rw [read_bias V c t]
  refine congrArg (· + V c main_v73 (ix2 (0 : Fin 1) (colOf j))) (Finset.sum_congr rfl fun k _ => ?_)
  rw [read_pooled V c t, read_weights V c t]

/-- An index of the output array lies in the point's block iff each coordinate lies in the block's range. -/
theorem mem_blk (t : Fin cfg4.N) (i : S512x2.Idx) :
    i ∈ ((cfg4.win 3).blk t).view.set ↔ ∀ a : Fin 2, win4_3.index t a * S512x2.size a ≤ (i a).val ∧ (i a).val < win4_3.index t a * S512x2.size a + S512x2.size a := by
  show i ∈ ((View.whole main_v74).slice (win4_3.rect t)).set ↔ _
  rw [View.set_slice_whole, Rect.mem_set_unit]
  exact Iff.rfl

/-- The one point's block covers the output. -/
theorem cover (i : S512x2.Idx) :
    ∃ t : Fin cfg4.N, (cfg4.win 3).flush t = true ∧ i ∈ ((cfg4.win 3).blk t).view.set := by
  have hi0 : (i 0).val < 512 := (i 0).isLt
  have hi1 : (i 1).val < 2 := (i 1).isLt
  refine ⟨t4_0, flush4_3 _, ?_⟩
  rw [mem_blk]
  obtain ⟨-, -, -, -, -, -, e6, e7⟩ := idx_facts t4_0
  intro a
  match a with
  | ⟨0, _⟩ =>
    show win4_3.index t4_0 (0 : Fin 2) * 512 ≤ (i 0).val ∧ (i 0).val < win4_3.index t4_0 (0 : Fin 2) * 512 + 512
    omega
  | ⟨1, _⟩ =>
    show win4_3.index t4_0 (1 : Fin 2) * 2 ≤ (i 1).val ∧ (i 1).val < win4_3.index t4_0 (1 : Fin 2) * 2 + 2
    omega

/-- After the region the output array is the linear map of the input arrays as the region found them. -/
theorem final (c : Dev nD) :
    (dat4 V c).arrAt 3 cfg4.N = linear (R := 512) (K := 128) (C := 2) (V c main_v72) (V c main_arg7) (V c main_v73) :=
  (dat4 V c).arrAt_eq_of_cover 3 _ (fun t _ => flushed_eq V c t) cover

end Cert.KernelIdeal.Linear4

end
-- ==== Proof.Stretches.lean ====
import proofs.«157782_j45887430590976_1_alg».proof.Proof.Gen.KernelIdeal.Launch
import proofs.«157782_j45887430590976_1_alg».proof.Proof.Gen.ReferenceIdeal.Read
import Idealize.ShloMosaic.Lib.StableHlo.Run

/-! # The host operations between the kernel regions

Between its five regions the kernel's program runs the same host operations as the reference: the degree
normalisation of the edges before the first region, the gather–scale–scatter aggregation before each combination, and
the mean pooling before the classifier.  Each stretch is read here as a function of the buffer contents it starts
from: a buffer a stretch writes holds the corresponding stage of the reference's computation, provided the buffers it
reads hold the reference's earlier stages; a buffer it does not write keeps its contents. -/

set_option maxRecDepth 16384

noncomputable section

namespace Cert.KernelIdeal.Stretch

open Idealize.ShloMosaic Idealize.ShloMosaic.TcCoe Idealize.SL.Sem Idealize.ShloMosaic.StableHlo
open Cert.KernelIdeal Cert.KernelIdeal.Gen
open Cert.ReferenceIdeal.Read (val_main_v1 val_main_v3 val_main_v26 val_main_v27 val_main_v29 val_main_v42 val_main_v50
  val_main_v63 val_main_v69 val_main_v81)

variable {F : FTy → Type} [FloatOps F] (W : Valuation τ sig (Elt F))

/-! ## Before the first region: the edge endpoints, the edge weights and the self-loop weights -/

/-- The source endpoints of the edges. -/
theorem s0_sources : StableHlo.after (hostOps0 (F := F)) W (Proc.devRef .tc main_v1) = val_main_v1 (W (Proc.devRef .tc main_arg1)) := by
  after_results_simp
  rfl
/-- The target endpoints of the edges. -/
theorem s0_targets : StableHlo.after (hostOps0 (F := F)) W (Proc.devRef .tc main_v3) = val_main_v3 (W (Proc.devRef .tc main_arg1)) := by
  after_results_simp
  rfl
/-- The symmetric normalisation weight of each edge. -/
theorem s0_edge_weights : StableHlo.after (hostOps0 (F := F)) W (Proc.devRef .tc main_v26) = val_main_v26 (W (Proc.devRef .tc main_arg1)) := by
  after_results_simp
  rfl
/-- The self-loop weight of each node, laid out as a column. -/
theorem s0_self_weights : StableHlo.after (hostOps0 (F := F)) W (Proc.devRef .tc main_v28)
    = shapeCast S100000x1 (val_main_v27 (W (Proc.devRef .tc main_arg1))) shapeCasts_S100000_S100000x1 := by
  after_results_simp
  rfl
theorem s0_keep_arg0 : StableHlo.after (hostOps0 (F := F)) W (Proc.devRef .tc main_arg0) = W (Proc.devRef .tc main_arg0) := by after_results_simp
theorem s0_keep_arg2 : StableHlo.after (hostOps0 (F := F)) W (Proc.devRef .tc main_arg2) = W (Proc.devRef .tc main_arg2) := by after_results_simp
theorem s0_keep_arg3 : StableHlo.after (hostOps0 (F := F)) W (Proc.devRef .tc main_arg3) = W (Proc.devRef .tc main_arg3) := by after_results_simp
theorem s0_keep_arg4 : StableHlo.after (hostOps0 (F := F)) W (Proc.devRef .tc main_arg4) = W (Proc.devRef .tc main_arg4) := by after_results_simp
theorem s0_keep_arg5 : StableHlo.after (hostOps0 (F := F)) W (Proc.devRef .tc main_arg5) = W (Proc.devRef .tc main_arg5) := by after_results_simp
theorem s0_keep_arg6 : StableHlo.after (hostOps0 (F := F)) W (Proc.devRef .tc main_arg6) = W (Proc.devRef .tc main_arg6) := by after_results_simp
theorem s0_keep_arg7 : StableHlo.after (hostOps0 (F := F)) W (Proc.devRef .tc main_arg7) = W (Proc.devRef .tc main_arg7) := by after_results_simp
theorem s0_keep_arg8 : StableHlo.after (hostOps0 (F := F)) W (Proc.devRef .tc main_arg8) = W (Proc.devRef .tc main_arg8) := by after_results_simp

/-! ## Before the first combination: the aggregate of the transformed features, and the bias as a row -/

/-- The neighbour aggregate of the first layer. -/
theorem s1_aggregate (x0 : (⟨S100000x128, .f32⟩ : BufTy).Contents (Elt F)) (x1 : (⟨S2x1600000, .i32⟩ : BufTy).Contents (Elt F)) (x3 : (⟨S128x128, .f32⟩ : BufTy).Contents (Elt F))
    (hh : W (Proc.devRef .tc main_v29) = val_main_v29 x0 x3)
    (hs : W (Proc.devRef .tc main_v1) = val_main_v1 x1)
    (ht : W (Proc.devRef .tc main_v3) = val_main_v3 x1)
    (hw : W (Proc.devRef .tc main_v26) = val_main_v26 x1) :
    StableHlo.after (hostOps1 (F := F)) W (Proc.devRef .tc main_v42) = val_main_v42 x0 x1 x3 := by
  after_results_simp
  rw [hh, hs, ht, hw]
  rfl
/-- The first bias as a one-row matrix. -/
theorem s1_bias : StableHlo.after (hostOps1 (F := F)) W (Proc.devRef .tc main_v43)
    = shapeCast S1x128 (W (Proc.devRef .tc main_arg4)) shapeCasts_S128_S1x128 := by
  after_results_simp
  rfl
theorem s1_keep_v29 : StableHlo.after (hostOps1 (F := F)) W (Proc.devRef .tc main_v29) = W (Proc.devRef .tc main_v29) := by after_results_simp
theorem s1_keep_v28 : StableHlo.after (hostOps1 (F := F)) W (Proc.devRef .tc main_v28) = W (Proc.devRef .tc main_v28) := by after_results_simp
theorem s1_keep_v1 : StableHlo.after (hostOps1 (F := F)) W (Proc.devRef .tc main_v1) = W (Proc.devRef .tc main_v1) := by after_results_simp
theorem s1_keep_v3 : StableHlo.after (hostOps1 (F := F)) W (Proc.devRef .tc main_v3) = W (Proc.devRef .tc main_v3) := by after_results_simp
theorem s1_keep_v26 : StableHlo.after (hostOps1 (F := F)) W (Proc.devRef .tc main_v26) = W (Proc.devRef .tc main_v26) := by after_results_simp
theorem s1_keep_arg2 : StableHlo.after (hostOps1 (F := F)) W (Proc.devRef .tc main_arg2) = W (Proc.devRef .tc main_arg2) := by after_results_simp
theorem s1_keep_arg5 : StableHlo.after (hostOps1 (F := F)) W (Proc.devRef .tc main_arg5) = W (Proc.devRef .tc main_arg5) := by after_results_simp
theorem s1_keep_arg6 : StableHlo.after (hostOps1 (F := F)) W (Proc.devRef .tc main_arg6) = W (Proc.devRef .tc main_arg6) := by after_results_simp
theorem s1_keep_arg7 : StableHlo.after (hostOps1 (F := F)) W (Proc.devRef .tc main_arg7) = W (Proc.devRef .tc main_arg7) := by after_results_simp
theorem s1_keep_arg8 : StableHlo.after (hostOps1 (F := F)) W (Proc.devRef .tc main_arg8) = W (Proc.devRef .tc main_arg8) := by after_results_simp

/-! ## Before the second combination -/

/-- The neighbour aggregate of the second layer. -/
theorem s3_aggregate (x0 : (⟨S100000x128, .f32⟩ : BufTy).Contents (Elt F)) (x1 : (⟨S2x1600000, .i32⟩ : BufTy).Contents (Elt F)) (x3 : (⟨S128x128, .f32⟩ : BufTy).Contents (Elt F))
    (x4 : (⟨S128, .f32⟩ : BufTy).Contents (Elt F)) (x5 : (⟨S128x128, .f32⟩ : BufTy).Contents (Elt F))
    (hh : W (Proc.devRef .tc main_v45) = val_main_v50 x0 x1 x3 x4 x5)
    (hs : W (Proc.devRef .tc main_v1) = val_main_v1 x1)
    (ht : W (Proc.devRef .tc main_v3) = val_main_v3 x1)
    (hw : W (Proc.devRef .tc main_v26) = val_main_v26 x1) :
    StableHlo.after (hostOps3 (F := F)) W (Proc.devRef .tc main_v58) = val_main_v63 x0 x1 x3 x4 x5 := by
  after_results_simp
  rw [hh, hs, ht, hw]
  rfl
/-- The second bias as a one-row matrix. -/
theorem s3_bias : StableHlo.after (hostOps3 (F := F)) W (Proc.devRef .tc main_v59)
    = shapeCast S1x128 (W (Proc.devRef .tc main_arg6)) shapeCasts_S128_S1x128 := by
  after_results_simp
  rfl
theorem s3_keep_v45 : StableHlo.after (hostOps3 (F := F)) W (Proc.devRef .tc main_v45) = W (Proc.devRef .tc main_v45) := by after_results_simp
theorem s3_keep_v28 : StableHlo.after (hostOps3 (F := F)) W (Proc.devRef .tc main_v28) = W (Proc.devRef .tc main_v28) := by after_results_simp
theorem s3_keep_arg2 : StableHlo.after (hostOps3 (F := F)) W (Proc.devRef .tc main_arg2) = W (Proc.devRef .tc main_arg2) := by after_results_simp
theorem s3_keep_arg7 : StableHlo.after (hostOps3 (F := F)) W (Proc.devRef .tc main_arg7) = W (Proc.devRef .tc main_arg7) := by after_results_simp
theorem s3_keep_arg8 : StableHlo.after (hostOps3 (F := F)) W (Proc.devRef .tc main_arg8) = W (Proc.devRef .tc main_arg8) := by after_results_simp

/-! ## Before the classifier: the mean of each graph's node rows -/

/-- The pooled rows. -/
theorem s4_pooled (x0 : (⟨S100000x128, .f32⟩ : BufTy).Contents (Elt F)) (x1 : (⟨S2x1600000, .i32⟩ : BufTy).Contents (Elt F)) (x2 : (⟨S100000, .i32⟩ : BufTy).Contents (Elt F)) (x3 : (⟨S128x128, .f32⟩ : BufTy).Contents (Elt F))
    (x4 : (⟨S128, .f32⟩ : BufTy).Contents (Elt F)) (x5 : (⟨S128x128, .f32⟩ : BufTy).Contents (Elt F)) (x6 : (⟨S128, .f32⟩ : BufTy).Contents (Elt F))
    (hh : W (Proc.devRef .tc main_v60) = val_main_v69 x0 x1 x3 x4 x5 x6)
    (hb : W (Proc.devRef .tc main_arg2) = x2) :
    StableHlo.after (hostOps4 (F := F)) W (Proc.devRef .tc main_v72) = val_main_v81 x0 x1 x2 x3 x4 x5 x6 := by
  after_results_simp
  rw [hh, hb]
  rfl
/-- The classifier's bias as a one-row matrix. -/
theorem s4_bias : StableHlo.after (hostOps4 (F := F)) W (Proc.devRef .tc main_v73)
    = shapeCast S1x2 (W (Proc.devRef .tc main_arg8)) shapeCasts_S2_S1x2 := by
  after_results_simp
  rfl
theorem s4_keep_arg7 : StableHlo.after (hostOps4 (F := F)) W (Proc.devRef .tc main_arg7) = W (Proc.devRef .tc main_arg7) := by after_results_simp

end Cert.KernelIdeal.Stretch

end
-- ==== Proof.RefStages.lean ====
import proofs.«157782_j45887430590976_1_alg».proof.Proof.Gen.ReferenceIdeal.Read
import proofs.«157782_j45887430590976_1_alg».proof.Proof.Spec

/-! # The reference's dense, combination and classifier stages are the layer functions

Read at an index over the extended reals, the reference's `dot_general` is the matrix product; its two broadcasts,
product and two sums (and, in the first layer, the maximum with zero) are the combination; and its last
`dot_general` plus the broadcast bias is the classifier. -/

noncomputable section

namespace Cert.ReferenceIdeal.Stages

open Idealize.ShloMosaic Idealize.ShloMosaic.ValueIdx Cert.Gcn
open Cert.ReferenceIdeal Cert.ReferenceIdeal.Read

/-- The first dense stage is the matrix product of the node features and the first weights. -/
theorem dense1 (x0 : (⟨S100000x128, .f32⟩ : BufTy).Contents (Elt Ideal)) (x3 : (⟨S128x128, .f32⟩ : BufTy).Contents (Elt Ideal)) :
    val_main_v29 (F := Ideal) x0 x3 = matProd (R := 100000) (K := 128) (C := 128) x0 x3 := by
  funext i
  rw [val_main_v29_apply]
  unfold matProd
  refine Finset.sum_congr rfl fun k _ => ?_
  have el : lidx_main_v29 i k = ix2 (rowOf i) k := funext fun a => by
    match a with
    | ⟨0, _⟩ => rfl
    | ⟨1, _⟩ => rfl
  have er : ridx_main_v29 i k = ix2 k (colOf i) := funext fun a => by
    match a with
    | ⟨0, _⟩ => rfl
    | ⟨1, _⟩ => rfl
  rw [el, er]

/-- The first layer's output is the combination, followed by the maximum with zero, of its four inputs. -/
theorem layer1 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) :
    val_main_v49 (F := Ideal) x0 x1 x3 x4
      = combineRelu (R := 100000) (C := 128) (val_main_v29 (F := Ideal) x0 x3) (val_main_v42 (F := Ideal) x0 x1 x3)
          (val_main_v28 (F := Ideal) x1) (val_main_v46 (F := Ideal) x4) := by
  funext i
  rw [val_main_v49_apply, val_main_v48_apply, val_main_v45_apply, val_main_v44_apply, val_main_v43_apply, val_main_v47_apply,
    val_main_call0_v0_apply, val_main_call0_cst_apply]
  have e1 : idx_main_v43 i = ix2 (rowOf i) (0 : Fin 1) := funext fun a => by
    match a with
    | ⟨0, _⟩ => rfl
    | ⟨1, _⟩ => rfl
  have e2 : idx_main_v47 i = ix2 (0 : Fin 1) (colOf i) := funext fun a => by
    match a with
    | ⟨0, _⟩ => rfl
    | ⟨1, _⟩ => rfl
  rw [e1, e2]
  rfl

/-- The second dense stage is the matrix product of the first layer's output and the second weights. -/
theorem dense2 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal))
    (x5 : (⟨S128x128, .f32⟩ : BufTy).Contents (Elt Ideal)) :
    val_main_v50 (F := Ideal) x0 x1 x3 x4 x5
      = matProd (R := 100000) (K := 128) (C := 128) (val_main_v49 (F := Ideal) x0 x1 x3 x4) x5 := by
  funext i
  rw [val_main_v50_apply]
  unfold matProd
  refine Finset.sum_congr rfl fun k _ => ?_
  have el : lidx_main_v50 i k = ix2 (rowOf i) k := funext fun a => by
    match a with
    | ⟨0, _⟩ => rfl
    | ⟨1, _⟩ => rfl
  have er : ridx_main_v50 i k = ix2 k (colOf i) := funext fun a => by
    match a with
    | ⟨0, _⟩ => rfl
    | ⟨1, _⟩ => rfl
  rw [el, er]

/-- The second layer's output is the combination of its four inputs. -/
theorem layer2 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal)) :
    val_main_v69 (F := Ideal) x0 x1 x3 x4 x5 x6
      = combine (R := 100000) (C := 128) (val_main_v50 (F := Ideal) x0 x1 x3 x4 x5) (val_main_v63 (F := Ideal) x0 x1 x3 x4 x5)
          (val_main_v28 (F := Ideal) x1) (val_main_v67 (F := Ideal) x6) := by
  funext i
  rw [val_main_v69_apply, val_main_v66_apply, val_main_v65_apply, val_main_v64_apply, val_main_v68_apply]
  have e1 : idx_main_v64 i = ix2 (rowOf i) (0 : Fin 1) := funext fun a => by
    match a with
    | ⟨0, _⟩ => rfl
    | ⟨1, _⟩ => rfl
  have e2 : idx_main_v68 i = ix2 (0 : Fin 1) (colOf i) := funext fun a => by
    match a with
    | ⟨0, _⟩ => rfl
    | ⟨1, _⟩ => rfl
  rw [e1, e2]
  rfl

/-- The result is the classifier's linear map of the pooled rows. -/
theorem classifier (x0 : (⟨S100000x128, .f32⟩ : BufTy).Contents (Elt Ideal)) (x1 : (⟨S2x1600000, .i32⟩ : BufTy).Contents (Elt Ideal)) (x2 : (⟨S100000, .i32⟩ : BufTy).Contents (Elt Ideal)) (x3 : (⟨S128x128, .f32⟩ : BufTy).Contents (Elt Ideal))
    (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x2, .f32⟩ : BufTy).Contents (Elt Ideal)) (x8 : (⟨S2, .f32⟩ : BufTy).Contents (Elt Ideal)) :
    val_main_v85 (F := Ideal) x0 x1 x2 x3 x4 x5 x6 x7 x8
      = linear (R := 512) (K := 128) (C := 2) (val_main_v81 (F := Ideal) x0 x1 x2 x3 x4 x5 x6) x7 (val_main_v83 (F := Ideal) x8) := by
  funext i
  rw [val_main_v85_apply, val_main_v82_apply, val_main_v84_apply]
  unfold linear matProd
  have e2 : idx_main_v84 i = ix2 (0 : Fin 1) (colOf i) := funext fun a => by
    match a with
    | ⟨0, _⟩ => rfl
    | ⟨1, _⟩ => rfl
  rw [e2]
  refine congrArg (· + val_main_v83 (F := Ideal) x8 (ix2 (0 : Fin 1) (colOf i))) (Finset.sum_congr rfl fun k _ => ?_)
  have el : lidx_main_v82 i k = ix2 (rowOf i) k := funext fun a => by
    match a with
    | ⟨0, _⟩ => rfl
    | ⟨1, _⟩ => rfl
  have er : ridx_main_v82 i k = ix2 k (colOf i) := funext fun a => by
    match a with
    | ⟨0, _⟩ => rfl
    | ⟨1, _⟩ => rfl
  rw [el, er]

end Cert.ReferenceIdeal.Stages

end
-- ==== Proof.LibUnitAxis.lean ====
import Idealize.ShloMosaic.Lib.Pipeline.Value
import Idealize.ShloMosaic.Lib.ValueIdx

/-! # A vector given a unit axis: the reshape and the broadcast agree

A vector of length `n` can be laid out as an `n × 1` column, or as a `1 × n` row, either by a reshape or by a broadcast
that sends the vector's axis to the long axis.  Both read the vector's entry at the long coordinate, so they are the
same array. -/

noncomputable section

namespace Cert.Lib

open Idealize.ShloMosaic Idealize.ShloMosaic.ValueIdx

/-- A vector reshaped to a column is the vector broadcast along the rows of an `n × 1` array. -/
theorem reshape_col_eq_broadcast {α : Type} {n : ℕ} (y : (⟨1, ![n]⟩ : Shape).Idx → α)
    (h : (⟨1, ![n]⟩ : Shape).ShapeCasts ⟨2, ![n, 1]⟩) (hb : (⟨1, ![n]⟩ : Shape).BroadcastsInDim ⟨2, ![n, 1]⟩ ![0]) :
    shapeCast ⟨2, ![n, 1]⟩ y h = broadcastInDim ⟨2, ![n, 1]⟩ ![0] hb y := by
  funext j
  have hj0 : (j 0).val < n := (j 0).isLt
  have hj1 : (j 1).val = 0 := by have : (j 1).val < 1 := (j 1).isLt; omega
  rw [shapeCast_apply y h j (ix1 ⟨(j 0).val, hj0⟩) (by
      rw [Shape.rowMajor_val_one, Shape.rowMajor_val_two]
      show (j 0).val = (j 0).val * 1 + (j 1).val
      omega),
    broadcastInDim_apply ![0] hb y j (ix1 ⟨(j 0).val, hj0⟩) (fun a => by
      match a with
      | ⟨0, _⟩ =>
        show (j 0).val = if n = 1 then 0 else (j 0).val
        split
        · omega
        · rfl)]

/-- A vector reshaped to a row is the vector broadcast along the columns of a `1 × n` array. -/
theorem reshape_row_eq_broadcast {α : Type} {n : ℕ} (y : (⟨1, ![n]⟩ : Shape).Idx → α)
    (h : (⟨1, ![n]⟩ : Shape).ShapeCasts ⟨2, ![1, n]⟩) (hb : (⟨1, ![n]⟩ : Shape).BroadcastsInDim ⟨2, ![1, n]⟩ ![1]) :
    shapeCast ⟨2, ![1, n]⟩ y h = broadcastInDim ⟨2, ![1, n]⟩ ![1] hb y := by
  funext j
  have hj1 : (j 1).val < n := (j 1).isLt
  have hj0 : (j 0).val = 0 := by have : (j 0).val < 1 := (j 0).isLt; omega
  rw [shapeCast_apply y h j (ix1 ⟨(j 1).val, hj1⟩) (by
      rw [Shape.rowMajor_val_one, Shape.rowMajor_val_two]
      show (j 1).val = (j 0).val * n + (j 1).val
      rw [hj0, Nat.zero_mul, Nat.zero_add]),
    broadcastInDim_apply ![1] hb y j (ix1 ⟨(j 1).val, hj1⟩) (fun a => by
      match a with
      | ⟨0, _⟩ =>
        show (j 1).val = if n = 1 then 0 else (j 1).val
        split
        · omega
        · rfl)]

end Cert.Lib

end
-- ==== Proof.Chain.lean ====
import proofs.«157782_j45887430590976_1_alg».proof.Proof.Dense0
import proofs.«157782_j45887430590976_1_alg».proof.Proof.Dense2
import proofs.«157782_j45887430590976_1_alg».proof.Proof.Combine1
import proofs.«157782_j45887430590976_1_alg».proof.Proof.Combine3
import proofs.«157782_j45887430590976_1_alg».proof.Proof.Linear4
import proofs.«157782_j45887430590976_1_alg».proof.Proof.Stretches
import proofs.«157782_j45887430590976_1_alg».proof.Proof.RefStages
import proofs.«157782_j45887430590976_1_alg».proof.Proof.LibUnitAxis

/-! # The buffer contents at the nine segment boundaries, as stages of the reference's computation

Walking through the program from the launch: after each stretch of host operations and after each region, every
buffer that is still to be read holds a named stage of the reference's computation applied to the launch contents of
the argument arrays.  A stretch's outputs are stages because its inputs are (the stretch lemmas); a region's output is
the layer function of its inputs (the region lemmas), which is the reference's stage (the stage lemmas); everything
else is carried over unchanged.  At the last boundary the result buffer holds the reference's result. -/

set_option maxRecDepth 16384

noncomputable section

namespace Cert.KernelIdeal.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Gcn Idealize.ShloMosaic.ValueIdx
open Cert.ReferenceIdeal.Read (val_main_v1 val_main_v3 val_main_v26 val_main_v27 val_main_v28 val_main_v29 val_main_v42 val_main_v46
  val_main_v49 val_main_v50 val_main_v63 val_main_v67 val_main_v69 val_main_v81 val_main_v83 val_main_v85)

variable (m : (ℓ : Loc nD τ sig) → Buf (Elt Ideal) ℓ) (ρ : Dev nD → PrngReg)

/-! ## Boundary 1: after the degree normalisation -/

theorem w1_v1 (c : Dev nD) : W1 m ρ c (Proc.devRef .tc main_v1) = val_main_v1 (F := Ideal) (m ((c : Thread nD τ).loc main_arg1)) := Stretch.s0_sources (W0 m ρ c)
theorem w1_v3 (c : Dev nD) : W1 m ρ c (Proc.devRef .tc main_v3) = val_main_v3 (F := Ideal) (m ((c : Thread nD τ).loc main_arg1)) := Stretch.s0_targets (W0 m ρ c)
theorem w1_v26 (c : Dev nD) : W1 m ρ c (Proc.devRef .tc main_v26) = val_main_v26 (F := Ideal) (m ((c : Thread nD τ).loc main_arg1)) := Stretch.s0_edge_weights (W0 m ρ c)
theorem w1_v28 (c : Dev nD) : W1 m ρ c (Proc.devRef .tc main_v28) = val_main_v28 (F := Ideal) (m ((c : Thread nD τ).loc main_arg1)) :=
  (Stretch.s0_self_weights (W0 m ρ c)).trans (Cert.Lib.reshape_col_eq_broadcast _ _ _)
theorem w1_arg0 (c : Dev nD) : W1 m ρ c (Proc.devRef .tc main_arg0) = m ((c : Thread nD τ).loc main_arg0) := Stretch.s0_keep_arg0 (W0 m ρ c)
theorem w1_arg2 (c : Dev nD) : W1 m ρ c (Proc.devRef .tc main_arg2) = m ((c : Thread nD τ).loc main_arg2) := Stretch.s0_keep_arg2 (W0 m ρ c)
theorem w1_arg3 (c : Dev nD) : W1 m ρ c (Proc.devRef .tc main_arg3) = m ((c : Thread nD τ).loc main_arg3) := Stretch.s0_keep_arg3 (W0 m ρ c)
theorem w1_arg4 (c : Dev nD) : W1 m ρ c (Proc.devRef .tc main_arg4) = m ((c : Thread nD τ).loc main_arg4) := Stretch.s0_keep_arg4 (W0 m ρ c)
theorem w1_arg5 (c : Dev nD) : W1 m ρ c (Proc.devRef .tc main_arg5) = m ((c : Thread nD τ).loc main_arg5) := Stretch.s0_keep_arg5 (W0 m ρ c)
theorem w1_arg6 (c : Dev nD) : W1 m ρ c (Proc.devRef .tc main_arg6) = m ((c : Thread nD τ).loc main_arg6) := Stretch.s0_keep_arg6 (W0 m ρ c)
theorem w1_arg7 (c : Dev nD) : W1 m ρ c (Proc.devRef .tc main_arg7) = m ((c : Thread nD τ).loc main_arg7) := Stretch.s0_keep_arg7 (W0 m ρ c)
theorem w1_arg8 (c : Dev nD) : W1 m ρ c (Proc.devRef .tc main_arg8) = m ((c : Thread nD τ).loc main_arg8) := Stretch.s0_keep_arg8 (W0 m ρ c)

/-! ## Boundary 2: after the first dense region -/

theorem w2_v29 (c : Dev nD) : W2 m ρ c (Proc.devRef .tc main_v29) = val_main_v29 (F := Ideal) (m ((c : Thread nD τ).loc main_arg0)) (m ((c : Thread nD τ).loc main_arg3)) := by
  refine (W2_arr m ρ c 2).trans ((Dense0.final (V1 m ρ) c).trans ?_)
  show matProd (R := 100000) (K := 128) (C := 128) (W1 m ρ c (Proc.devRef .tc main_arg0)) (W1 m ρ c (Proc.devRef .tc main_arg3)) = _
  rw [w1_arg0, w1_arg3, Cert.ReferenceIdeal.Stages.dense1]
theorem w2_v1 (c : Dev nD) : W2 m ρ c (Proc.devRef .tc main_v1) = val_main_v1 (F := Ideal) (m ((c : Thread nD τ).loc main_arg1)) :=
  (W2_of_ne m ρ c main_v1 (by decide)).trans (w1_v1 m ρ c)
theorem w2_v3 (c : Dev nD) : W2 m ρ c (Proc.devRef .tc main_v3) = val_main_v3 (F := Ideal) (m ((c : Thread nD τ).loc main_arg1)) :=
  (W2_of_ne m ρ c main_v3 (by decide)).trans (w1_v3 m ρ c)
theorem w2_v26 (c : Dev nD) : W2 m ρ c (Proc.devRef .tc main_v26) = val_main_v26 (F := Ideal) (m ((c : Thread nD τ).loc main_arg1)) :=
  (W2_of_ne m ρ c main_v26 (by decide)).trans (w1_v26 m ρ c)
theorem w2_v28 (c : Dev nD) : W2 m ρ c (Proc.devRef .tc main_v28) = val_main_v28 (F := Ideal) (m ((c : Thread nD τ).loc main_arg1)) :=
  (W2_of_ne m ρ c main_v28 (by decide)).trans (w1_v28 m ρ c)
theorem w2_arg2 (c : Dev nD) : W2 m ρ c (Proc.devRef .tc main_arg2) = m ((c : Thread nD τ).loc main_arg2) :=
  (W2_of_ne m ρ c main_arg2 (by decide)).trans (w1_arg2 m ρ c)
theorem w2_arg4 (c : Dev nD) : W2 m ρ c (Proc.devRef .tc main_arg4) = m ((c : Thread nD τ).loc main_arg4) :=
  (W2_of_ne m ρ c main_arg4 (by decide)).trans (w1_arg4 m ρ c)
theorem w2_arg5 (c : Dev nD) : W2 m ρ c (Proc.devRef .tc main_arg5) = m ((c : Thread nD τ).loc main_arg5) :=
  (W2_of_ne m ρ c main_arg5 (by decide)).trans (w1_arg5 m ρ c)
theorem w2_arg6 (c : Dev nD) : W2 m ρ c (Proc.devRef .tc main_arg6) = m ((c : Thread nD τ).loc main_arg6) :=
  (W2_of_ne m ρ c main_arg6 (by decide)).trans (w1_arg6 m ρ c)
theorem w2_arg7 (c : Dev nD) : W2 m ρ c (Proc.devRef .tc main_arg7) = m ((c : Thread nD τ).loc main_arg7) :=
  (W2_of_ne m ρ c main_arg7 (by decide)).trans (w1_arg7 m ρ c)
theorem w2_arg8 (c : Dev nD) : W2 m ρ c (Proc.devRef .tc main_arg8) = m ((c : Thread nD τ).loc main_arg8) :=
  (W2_of_ne m ρ c main_arg8 (by decide)).trans (w1_arg8 m ρ c)

/-! ## Boundary 3: after the first aggregation -/

theorem w3_v42 (c : Dev nD) : W3 m ρ c (Proc.devRef .tc main_v42) = val_main_v42 (F := Ideal) (m ((c : Thread nD τ).loc main_arg0)) (m ((c : Thread nD τ).loc main_arg1)) (m ((c : Thread nD τ).loc main_arg3)) :=
  Stretch.s1_aggregate (W2 m ρ c) _ _ _ (w2_v29 m ρ c) (w2_v1 m ρ c) (w2_v3 m ρ c) (w2_v26 m ρ c)
theorem w3_v43 (c : Dev nD) : W3 m ρ c (Proc.devRef .tc main_v43) = val_main_v46 (F := Ideal) (m ((c : Thread nD τ).loc main_arg4)) := by
  refine (Stretch.s1_bias (W2 m ρ c)).trans ?_
  rw [w2_arg4]
  exact Cert.Lib.reshape_row_eq_broadcast _ _ _
theorem w3_v29 (c : Dev nD) : W3 m ρ c (Proc.devRef .tc main_v29) = val_main_v29 (F := Ideal) (m ((c : Thread nD τ).loc main_arg0)) (m ((c : Thread nD τ).loc main_arg3)) :=
  (Stretch.s1_keep_v29 (W2 m ρ c)).trans (w2_v29 m ρ c)
theorem w3_v28 (c : Dev nD) : W3 m ρ c (Proc.devRef .tc main_v28) = val_main_v28 (F := Ideal) (m ((c : Thread nD τ).loc main_arg1)) :=
  (Stretch.s1_keep_v28 (W2 m ρ c)).trans (w2_v28 m ρ c)
theorem w3_v1 (c : Dev nD) : W3 m ρ c (Proc.devRef .tc main_v1) = val_main_v1 (F := Ideal) (m ((c : Thread nD τ).loc main_arg1)) :=
  (Stretch.s1_keep_v1 (W2 m ρ c)).trans (w2_v1 m ρ c)
theorem w3_v3 (c : Dev nD) : W3 m ρ c (Proc.devRef .tc main_v3) = val_main_v3 (F := Ideal) (m ((c : Thread nD τ).loc main_arg1)) :=
  (Stretch.s1_keep_v3 (W2 m ρ c)).trans (w2_v3 m ρ c)
theorem w3_v26 (c : Dev nD) : W3 m ρ c (Proc.devRef .tc main_v26) = val_main_v26 (F := Ideal) (m ((c : Thread nD τ).loc main_arg1)) :=
  (Stretch.s1_keep_v26 (W2 m ρ c)).trans (w2_v26 m ρ c)
theorem w3_arg2 (c : Dev nD) : W3 m ρ c (Proc.devRef .tc main_arg2) = m ((c : Thread nD τ).loc main_arg2) :=
  (Stretch.s1_keep_arg2 (W2 m ρ c)).trans (w2_arg2 m ρ c)
theorem w3_arg5 (c : Dev nD) : W3 m ρ c (Proc.devRef .tc main_arg5) = m ((c : Thread nD τ).loc main_arg5) :=
  (Stretch.s1_keep_arg5 (W2 m ρ c)).trans (w2_arg5 m ρ c)
theorem w3_arg6 (c : Dev nD) : W3 m ρ c (Proc.devRef .tc main_arg6) = m ((c : Thread nD τ).loc main_arg6) :=
  (Stretch.s1_keep_arg6 (W2 m ρ c)).trans (w2_arg6 m ρ c)
theorem w3_arg7 (c : Dev nD) : W3 m ρ c (Proc.devRef .tc main_arg7) = m ((c : Thread nD τ).loc main_arg7) :=
  (Stretch.s1_keep_arg7 (W2 m ρ c)).trans (w2_arg7 m ρ c)
theorem w3_arg8 (c : Dev nD) : W3 m ρ c (Proc.devRef .tc main_arg8) = m ((c : Thread nD τ).loc main_arg8) :=
  (Stretch.s1_keep_arg8 (W2 m ρ c)).trans (w2_arg8 m ρ c)

/-! ## Boundary 4: after the first combination -/

theorem w4_v44 (c : Dev nD) : W4 m ρ c (Proc.devRef .tc main_v44) = val_main_v49 (F := Ideal) (m ((c : Thread nD τ).loc main_arg0)) (m ((c : Thread nD τ).loc main_arg1)) (m ((c : Thread nD τ).loc main_arg3)) (m ((c : Thread nD τ).loc main_arg4)) := by
  refine (W4_arr m ρ c 4).trans ((Combine1.final (V3 m ρ) c).trans ?_)
  show combineRelu (R := 100000) (C := 128) (W3 m ρ c (Proc.devRef .tc main_v29)) (W3 m ρ c (Proc.devRef .tc main_v42)) (W3 m ρ c (Proc.devRef .tc main_v28)) (W3 m ρ c (Proc.devRef .tc main_v43)) = _
  rw [w3_v29, w3_v42, w3_v28, w3_v43, Cert.ReferenceIdeal.Stages.layer1]
theorem w4_v1 (c : Dev nD) : W4 m ρ c (Proc.devRef .tc main_v1) = val_main_v1 (F := Ideal) (m ((c : Thread nD τ).loc main_arg1)) :=
  (W4_of_ne m ρ c main_v1 (by decide)).trans (w3_v1 m ρ c)
theorem w4_v3 (c : Dev nD) : W4 m ρ c (Proc.devRef .tc main_v3) = val_main_v3 (F := Ideal) (m ((c : Thread nD τ).loc main_arg1)) :=
  (W4_of_ne m ρ c main_v3 (by decide)).trans (w3_v3 m ρ c)
theorem w4_v26 (c : Dev nD) : W4 m ρ c (Proc.devRef .tc main_v26) = val_main_v26 (F := Ideal) (m ((c : Thread nD τ).loc main_arg1)) :=
  (W4_of_ne m ρ c main_v26 (by decide)).trans (w3_v26 m ρ c)
theorem w4_v28 (c : Dev nD) : W4 m ρ c (Proc.devRef .tc main_v28) = val_main_v28 (F := Ideal) (m ((c : Thread nD τ).loc main_arg1)) :=
  (W4_arr m ρ c 2).trans ((((dat1 (V3 m ρ) c).arrAt_in 2 rfl _).trans (A_eq1 (V3 m ρ) c 2)).trans (w3_v28 m ρ c))
theorem w4_arg2 (c : Dev nD) : W4 m ρ c (Proc.devRef .tc main_arg2) = m ((c : Thread nD τ).loc main_arg2) :=
  (W4_of_ne m ρ c main_arg2 (by decide)).trans (w3_arg2 m ρ c)
theorem w4_arg5 (c : Dev nD) : W4 m ρ c (Proc.devRef .tc main_arg5) = m ((c : Thread nD τ).loc main_arg5) :=
  (W4_of_ne m ρ c main_arg5 (by decide)).trans (w3_arg5 m ρ c)
theorem w4_arg6 (c : Dev nD) : W4 m ρ c (Proc.devRef .tc main_arg6) = m ((c : Thread nD τ).loc main_arg6) :=
  (W4_of_ne m ρ c main_arg6 (by decide)).trans (w3_arg6 m ρ c)
theorem w4_arg7 (c : Dev nD) : W4 m ρ c (Proc.devRef .tc main_arg7) = m ((c : Thread nD τ).loc main_arg7) :=
  (W4_of_ne m ρ c main_arg7 (by decide)).trans (w3_arg7 m ρ c)
theorem w4_arg8 (c : Dev nD) : W4 m ρ c (Proc.devRef .tc main_arg8) = m ((c : Thread nD τ).loc main_arg8) :=
  (W4_of_ne m ρ c main_arg8 (by decide)).trans (w3_arg8 m ρ c)

/-! ## Boundary 5: after the second dense region -/

theorem w5_v45 (c : Dev nD) : W5 m ρ c (Proc.devRef .tc main_v45) = val_main_v50 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W5_arr m ρ c 2).trans ((Dense2.final (V4 m ρ) c).trans ?_)
  show matProd (R := 100000) (K := 128) (C := 128) (W4 m ρ c (Proc.devRef .tc main_v44)) (W4 m ρ c (Proc.devRef .tc main_arg5)) = _
  rw [w4_v44, w4_arg5, Cert.ReferenceIdeal.Stages.dense2]
theorem w5_v1 (c : Dev nD) : W5 m ρ c (Proc.devRef .tc main_v1) = val_main_v1 (F := Ideal) (m ((c : Thread nD τ).loc main_arg1)) :=
  (W5_of_ne m ρ c main_v1 (by decide)).trans (w4_v1 m ρ c)
theorem w5_v3 (c : Dev nD) : W5 m ρ c (Proc.devRef .tc main_v3) = val_main_v3 (F := Ideal) (m ((c : Thread nD τ).loc main_arg1)) :=
  (W5_of_ne m ρ c main_v3 (by decide)).trans (w4_v3 m ρ c)
theorem w5_v26 (c : Dev nD) : W5 m ρ c (Proc.devRef .tc main_v26) = val_main_v26 (F := Ideal) (m ((c : Thread nD τ).loc main_arg1)) :=
  (W5_of_ne m ρ c main_v26 (by decide)).trans (w4_v26 m ρ c)
theorem w5_v28 (c : Dev nD) : W5 m ρ c (Proc.devRef .tc main_v28) = val_main_v28 (F := Ideal) (m ((c : Thread nD τ).loc main_arg1)) :=
  (W5_of_ne m ρ c main_v28 (by decide)).trans (w4_v28 m ρ c)
theorem w5_arg2 (c : Dev nD) : W5 m ρ c (Proc.devRef .tc main_arg2) = m ((c : Thread nD τ).loc main_arg2) :=
  (W5_of_ne m ρ c main_arg2 (by decide)).trans (w4_arg2 m ρ c)
theorem w5_arg6 (c : Dev nD) : W5 m ρ c (Proc.devRef .tc main_arg6) = m ((c : Thread nD τ).loc main_arg6) :=
  (W5_of_ne m ρ c main_arg6 (by decide)).trans (w4_arg6 m ρ c)
theorem w5_arg7 (c : Dev nD) : W5 m ρ c (Proc.devRef .tc main_arg7) = m ((c : Thread nD τ).loc main_arg7) :=
  (W5_of_ne m ρ c main_arg7 (by decide)).trans (w4_arg7 m ρ c)
theorem w5_arg8 (c : Dev nD) : W5 m ρ c (Proc.devRef .tc main_arg8) = m ((c : Thread nD τ).loc main_arg8) :=
  (W5_of_ne m ρ c main_arg8 (by decide)).trans (w4_arg8 m ρ c)

/-! ## Boundary 6: after the second aggregation -/

theorem w6_v58 (c : Dev nD) : W6 m ρ c (Proc.devRef .tc main_v58) = val_main_v63 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  Stretch.s3_aggregate (W5 m ρ c) _ _ _ _ _ (w5_v45 m ρ c) (w5_v1 m ρ c) (w5_v3 m ρ c) (w5_v26 m ρ c)
theorem w6_v59 (c : Dev nD) : W6 m ρ c (Proc.devRef .tc main_v59) = val_main_v67 (F := Ideal) (m ((c : Thread nD τ).loc main_arg6)) := by
  refine (Stretch.s3_bias (W5 m ρ c)).trans ?_
  rw [w5_arg6]
  exact Cert.Lib.reshape_row_eq_broadcast _ _ _
theorem w6_v45 (c : Dev nD) : W6 m ρ c (Proc.devRef .tc main_v45) = val_main_v50 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  (Stretch.s3_keep_v45 (W5 m ρ c)).trans (w5_v45 m ρ c)
theorem w6_v28 (c : Dev nD) : W6 m ρ c (Proc.devRef .tc main_v28) = val_main_v28 (F := Ideal) (m ((c : Thread nD τ).loc main_arg1)) :=
  (Stretch.s3_keep_v28 (W5 m ρ c)).trans (w5_v28 m ρ c)
theorem w6_arg2 (c : Dev nD) : W6 m ρ c (Proc.devRef .tc main_arg2) = m ((c : Thread nD τ).loc main_arg2) :=
  (Stretch.s3_keep_arg2 (W5 m ρ c)).trans (w5_arg2 m ρ c)
theorem w6_arg7 (c : Dev nD) : W6 m ρ c (Proc.devRef .tc main_arg7) = m ((c : Thread nD τ).loc main_arg7) :=
  (Stretch.s3_keep_arg7 (W5 m ρ c)).trans (w5_arg7 m ρ c)
theorem w6_arg8 (c : Dev nD) : W6 m ρ c (Proc.devRef .tc main_arg8) = m ((c : Thread nD τ).loc main_arg8) :=
  (Stretch.s3_keep_arg8 (W5 m ρ c)).trans (w5_arg8 m ρ c)

/-! ## Boundary 7: after the second combination -/

theorem w7_v60 (c : Dev nD) : W7 m ρ c (Proc.devRef .tc main_v60) = val_main_v69 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W7_arr m ρ c 4).trans ((Combine3.final (V6 m ρ) c).trans ?_)
  show combine (R := 100000) (C := 128) (W6 m ρ c (Proc.devRef .tc main_v45)) (W6 m ρ c (Proc.devRef .tc main_v58)) (W6 m ρ c (Proc.devRef .tc main_v28)) (W6 m ρ c (Proc.devRef .tc main_v59)) = _
  rw [w6_v45, w6_v58, w6_v28, w6_v59, Cert.ReferenceIdeal.Stages.layer2]
theorem w7_arg2 (c : Dev nD) : W7 m ρ c (Proc.devRef .tc main_arg2) = m ((c : Thread nD τ).loc main_arg2) :=
  (W7_of_ne m ρ c main_arg2 (by decide)).trans (w6_arg2 m ρ c)
theorem w7_arg7 (c : Dev nD) : W7 m ρ c (Proc.devRef .tc main_arg7) = m ((c : Thread nD τ).loc main_arg7) :=
  (W7_of_ne m ρ c main_arg7 (by decide)).trans (w6_arg7 m ρ c)
theorem w7_arg8 (c : Dev nD) : W7 m ρ c (Proc.devRef .tc main_arg8) = m ((c : Thread nD τ).loc main_arg8) :=
  (W7_of_ne m ρ c main_arg8 (by decide)).trans (w6_arg8 m ρ c)

/-! ## Boundary 8: after the pooling -/

theorem w8_v72 (c : Dev nD) : W8 m ρ c (Proc.devRef .tc main_v72) = val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  Stretch.s4_pooled (W7 m ρ c) _ _ _ _ _ _ _ (w7_v60 m ρ c) (w7_arg2 m ρ c)
theorem w8_v73 (c : Dev nD) : W8 m ρ c (Proc.devRef .tc main_v73) = val_main_v83 (F := Ideal) (m ((c : Thread nD τ).loc main_arg8)) := by
  refine (Stretch.s4_bias (W7 m ρ c)).trans ?_
  rw [w7_arg8]
  exact Cert.Lib.reshape_row_eq_broadcast _ _ _
theorem w8_arg7 (c : Dev nD) : W8 m ρ c (Proc.devRef .tc main_arg7) = m ((c : Thread nD τ).loc main_arg7) :=
  (Stretch.s4_keep_arg7 (W7 m ρ c)).trans (w7_arg7 m ρ c)

/-! ## Boundary 9: after the classifier -/

/-- At the end the result buffer holds the reference's result stage of the launch contents of the arguments. -/
theorem w9_v74 (c : Dev nD) : W9 m ρ c (Proc.devRef .tc main_v74) = val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W9_arr m ρ c 3).trans ((Linear4.final (V8 m ρ) c).trans ?_)
  show linear (R := 512) (K := 128) (C := 2) (W8 m ρ c (Proc.devRef .tc main_v72)) (W8 m ρ c (Proc.devRef .tc main_arg7)) (W8 m ρ c (Proc.devRef .tc main_v73)) = _
  rw [w8_v72, w8_arg7, w8_v73, Cert.ReferenceIdeal.Stages.classifier]

end Cert.KernelIdeal.Chain

end
-- ==== Proof.lean ====
/- Equivalence, over the extended reals, of a two-layer graph convolutional network with mean pooling and a linear
   classifier written as five tiled kernels (two dense layers, two combinations, the classifier) against its plain
   reference.

   The two programs run the same host operations around the dense and elementwise stages: the degree normalisation
   of the edges, the gather–scale–scatter aggregation of each layer, the mean pooling.  Where the reference has a
   `dot_general` the kernel has a region that multiplies fifty row tiles on the matrix unit from a zero accumulator:
   at the ideal values the cast to the narrow float is the identity and each tile's entry is the same sum over the
   shared axis, so the region's output array is the matrix product.  Where the reference broadcasts, multiplies and
   adds (and takes the maximum with zero after the first layer) the kernel has a region whose tiles are the same
   entrywise expression.  No law beyond these identifications is used: no sum is reordered and no factor moved, so
   the finiteness of the inputs is never needed.

   The kernel's run is read boundary by boundary (Proof/Chain.lean): after every stretch of host operations and every
   region, each buffer still to be read holds a stage of the reference's computation of the launch arguments; at the
   end the result buffer holds the reference's result (Proof/KernelRun.lean names it in the run's post).  The
   reference's run gives the same stage of its own arguments, which agree with the kernel's. -/
import proofs.«157782_j45887430590976_1_alg».proof.Defs
import proofs.«157782_j45887430590976_1_alg».proof.Proof.Gen.Kernel
import proofs.«157782_j45887430590976_1_alg».proof.Proof.Gen.Kernel.Skeleton
import proofs.«157782_j45887430590976_1_alg».proof.Proof.Gen.Kernel.Launch
import proofs.«157782_j45887430590976_1_alg».proof.Proof.Gen.Kernel.Points
import proofs.«157782_j45887430590976_1_alg».proof.Proof.Gen.Kernel.Frame
import proofs.«157782_j45887430590976_1_alg».proof.Proof.Gen.KernelIdeal
import proofs.«157782_j45887430590976_1_alg».proof.Proof.Gen.KernelIdeal.Skeleton
import proofs.«157782_j45887430590976_1_alg».proof.Proof.Gen.KernelIdeal.Launch
import proofs.«157782_j45887430590976_1_alg».proof.Proof.Gen.KernelIdeal.Points
import proofs.«157782_j45887430590976_1_alg».proof.Proof.Gen.KernelIdeal.Frame
import proofs.«157782_j45887430590976_1_alg».proof.Proof.Gen.ReferenceIdeal
import proofs.«157782_j45887430590976_1_alg».proof.Proof.Gen.Pre_finite_inputs
import proofs.«157782_j45887430590976_1_alg».proof.Proof.Gen.ReferenceIdeal.Run
import proofs.«157782_j45887430590976_1_alg».proof.Proof.Gen.ReferenceIdeal.Read
import proofs.«157782_j45887430590976_1_alg».proof.Proof.KernelRun
import proofs.«157782_j45887430590976_1_alg».proof.Proof.Chain
import Idealize.ShloMosaic.Adequacy
import Idealize.ShloMosaic.Init

noncomputable section

namespace Cert.Proof

open Idealize.ShloMosaic Idealize.ShloMosaic.TcCoe Idealize.SL.Sem

/-- The kernel's program as printed runs and leaves its arguments unchanged. -/
theorem frame_kernel : Cert.frame_Kernel := fun m ρ _ => Cert.Kernel.Gen.frame m ρ

/-- So does its reading at the ideal values. -/
theorem frame_kernelIdeal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the reference's result stage of the (agreeing) argument arrays. -/
theorem algebraic : Cert.algebraic_KernelIdeal_ReferenceIdeal := by
  intro m ρ m' ρ' _ hagree
  refine ⟨fun c => Cert.ReferenceIdeal.Read.val_main_v85 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono (fun r h c => ⟨(h c).1.trans (Cert.KernelIdeal.Chain.w9_v74 m ρ c), (h c).2⟩)
      (Cert.KernelIdeal.Result.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v85_eq]
    obtain ⟨h0, h1, h2, h3, h4, h5, h6, h7, h8⟩ := hagree c
    rw [h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
